-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v29) = v4 c
          ∧ r.2.mem ((c.tc : Thread Cert.ReferenceIdeal.nD Cert.ReferenceIdeal.τ).loc Cert.ReferenceIdeal.main_v30) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x512 : Shape := ⟨2, ![256, 512]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x512 .f32) (main_arg8 : FVec F S256 .f32) (main_arg9 : FVec F S256x512 .f32) (main_arg10 : FVec F S256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x512 .f32) (main_arg6 : FVec F S256 .f32) (main_arg7 : FVec F S256x512 .f32) (main_arg8 : FVec F S256 .f32) (main_arg9 : FVec F S256x512 .f32) (main_arg10 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S65536x256 .f32) (main_arg3 : FVec F S256x512 .f32) (main_arg4 : FVec F S256 .f32) (main_arg5 : FVec F S256x512 .f32) (main_arg6 : FVec F S256 .f32) (main_arg7 : FVec F S256x512 .f32) (main_arg8 : FVec F S256 .f32) (main_arg9 : FVec F S256x512 .f32) (main_arg10 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S256x512 : Shape := ⟨2, ![256, 512]⟩
abbrev S256 : Shape := ⟨1, ![256]⟩
abbrev S1024x512 : Shape := ⟨2, ![1024, 512]⟩
abbrev S1024 : Shape := ⟨1, ![1024]⟩
abbrev S512x1024 : Shape := ⟨2, ![512, 1024]⟩
abbrev S1024x256 : Shape := ⟨2, ![1024, 256]⟩
abbrev S1024x1024 : Shape := ⟨2, ![1024, 1024]⟩
abbrev S1x1024 : Shape := ⟨2, ![1, 1024]⟩

abbrev nBuf : Space → Nat
  | .hbm => 21
  | .vmem => 20
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S1024x512, .f32⟩
  | .hbm, ⟨12, _⟩ => ⟨S1024, .f32⟩
  | .hbm, ⟨13, _⟩ => ⟨S512x1024, .f32⟩
  | .hbm, ⟨14, _⟩ => ⟨S512x1024, .bf16⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S512x1024, .bf16⟩
  | .local _ .vmem, ⟨7, _⟩ => ⟨S1024, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S256x512_S256x512_S256x512_S256x512_S1024x512_d0 : Shape.Concatenates [S256x512, S256x512, S256x512, S256x512] S1024x512 0
  concatenates_S256_S256_S256_S256_S1024_d0 : Shape.Concatenates [S256, S256, S256, S256] S1024 0
  transposes_S1024x512_S512x1024_1_0 : S1024x512.Transposes [1, 0] S512x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  concatenates_S1024x256_S1024x256_S1024x512_d1 : Shape.Concatenates [S1024x256, S1024x256] S1024x512 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S65536x256.size a
  hwx0_5 : ∀ i : grid0.Coords, EltTy.bits .f32 = 32 ∨ (Rect.block (s := S65536x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S65536x256.size a
  hwx0_8 : ∀ i : grid0.Coords, EltTy.bits .f32 = 32 ∨ (Rect.block (s := S65536x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S65536x256.size a
  hwx0_9 : ∀ i : grid0.Coords, EltTy.bits .f32 = 32 ∨ (Rect.block (s := S65536x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S65536x256.size a
  hwx0_10 : ∀ i : grid0.Coords, EltTy.bits .f32 = 32 ∨ (Rect.block (s := S65536x256) S1024x256.size (cc0_transform_10 i) (hinb0_10 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_3) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_4) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_5) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x512 : Shape := ⟨2, ![256, 512]⟩
abbrev S256 : Shape := ⟨1, ![256]⟩
abbrev S65536x512 : Shape := ⟨2, ![65536, 512]⟩
abbrev S1024x512 : Shape := ⟨2, ![1024, 512]⟩
abbrev S1024 : Shape := ⟨1, ![1024]⟩
abbrev S512x1024 : Shape := ⟨2, ![512, 1024]⟩
abbrev S65536x1024 : Shape := ⟨2, ![65536, 1024]⟩
abbrev S1x1024 : Shape := ⟨2, ![1, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S65536x512, .f32⟩
  | .hbm, ⟨12, _⟩ => ⟨S1024x512, .f32⟩
  | .hbm, ⟨13, _⟩ => ⟨S1024, .f32⟩
  | .hbm, ⟨14, _⟩ => ⟨S512x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x256, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S_, .f32⟩
  | .hbm, ⟨37, _⟩ => ⟨S65536x256, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S_, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S65536x256_S65536x256_S65536x512_d1 : Shape.Concatenates [S65536x256, S65536x256] S65536x512 1
  concatenates_S256x512_S256x512_S256x512_S256x512_S1024x512_d0 : Shape.Concatenates [S256x512, S256x512, S256x512, S256x512] S1024x512 0
  concatenates_S256_S256_S256_S256_S1024_d0 : Shape.Concatenates [S256, S256, S256, S256] S1024 0
  transposes_S1024x512_S512x1024_1_0 : S1024x512.Transposes [1, 0] S512x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  dot_S65536x512_S512x1024_S65536x1024_1_0_0_1_n_n_wf : DotDims.WF S65536x512 S512x1024 S65536x1024 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf

class Facts : Prop extends Facts₀ where

variable [Facts]
-- ==== Proof.FrameBits.lean ====
/-
  The run of the one pallas_call of this program and what it leaves, at any float instance `F`.

  @main is four host operations — the four gate weight matrices stacked along the rows, the four gate bias vectors
  joined end to end, the stacked matrix transposed, and its change of format — and then the region: a grid of 64
  points, point `t` reading rows `1024·t … 1024·t + 1023` of the input, of the hidden state and of the cell state, the
  whole transposed weight matrix and the whole bias vector (both fetched once, at the first point), and writing
  the same rows of the six results. Each result block is ONE whole-block store of a pure function of the five
  blocks read, so what a result's staging buffer holds after the body is that function of the input blocks
  (`out_5 … out_10`); the body also reads each result buffer just before it overwrites it, and the value read is
  never used. From there: the proof data of the pipeline (`dats`), the body's triple and the obligation at a
  generic point, the run to the pipeline library's frame post (`run_main`: every result array at what the write-backs
  assemble, every other unscoped buffer as the region found it), and the frame statement itself (`frame`).
-/
import proofs.«161298_j80341658239358_1_alg».proof.Proof.Gen.Kernel.Launch
import proofs.«161298_j80341658239358_1_alg».proof.Proof.Gen.Kernel.Skeleton
import proofs.«161298_j80341658239358_1_alg».proof.Proof.Gen.Kernel.Points
import Idealize.ShloMosaic.Lib.Pipeline.FrameBody
import Idealize.ShloMosaic.Lib.Ring
import Idealize.ShloMosaic.Lib.Tactic

-- membership in a rectangle of 1024 x 256 cells: the structural look recurses once per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four host operations. -/
abbrev V (c : Dev nD) (b : Ref sig .tc) : Buf (Elt F) ((c : Thread nD τ).loc b) := StableHlo.after hostOps0 (fun b => m (c, b)) b

/-- None of the four host operations allocates anything. -/
theorem hostOps0_fresh : (hostOps0 : List (HloOp τ sig (Elt F))).Forall fun op => op.fresh = ∅ := by
  simp only [List.Forall]; repeat' constructor

/-- @main is the four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0 … main_v3` only: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not (a
    point that does not fetch it has the same block index as the one before), for any proof data over the region-entry
    arrays whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not (a
    point that does not fetch it has the same block index as the one before), for any proof data over the region-entry
    arrays whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not (a
    point that does not fetch it has the same block index as the one before), for any proof data over the region-entry
    arrays whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not (a
    point that does not fetch it has the same block index as the one before), for any proof data over the region-entry
    arrays whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not (a
    point that does not fetch it has the same block index as the one before), for any proof data over the region-entry
    arrays whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame statement from the frame run -/

/-- For any proof data over the region-entry arrays, a run to the library's frame post gives the frame statement:
    the three row-blocked inputs are windows' arrays and end as they were found, the eight weight and bias arguments
    are staged by no window and are kept by the post's second clause; each was found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev rA : Rect S1024x256 := Rect.unit (s := S1024x256) ![0, 0] S1024x256.size inb_S1024x256_S1024x256_0_0
abbrev rW : Rect S512x1024 := Rect.unit (s := S512x1024) ![0, 0] S512x1024.size inb_S512x1024_S512x1024_0_0
abbrev rB : Rect S1024 := Rect.unit (s := S1024) ![0] S1024.size inb_S1024_S1024_0

/-! ## What the body leaves in each result window's buffer -/

/-- Window 5's staging buffer after the body (the new hidden state): its one whole-block store, over the blocks read. -/
def out_5 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay7 (View.ld x0 rA) (View.ld x1 rA) (View.ld x2 rA) (View.ld x3 rW) (View.ld x4 rB)⟩]

/-- Window 6's staging buffer after the body (the new cell state): its one whole-block store, over the blocks read. -/
def out_6 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay6 (View.ld x0 rA) (View.ld x1 rA) (View.ld x2 rA) (View.ld x3 rW) (View.ld x4 rB)⟩]

/-- Window 7's staging buffer after the body (the forget gate): its one whole-block store, over the blocks read. -/
def out_7 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay2 (View.ld x0 rA) (View.ld x1 rA) (View.ld x3 rW) (View.ld x4 rB)⟩]

/-- Window 8's staging buffer after the body (the input gate): its one whole-block store, over the blocks read. -/
def out_8 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay3 (View.ld x0 rA) (View.ld x1 rA) (View.ld x3 rW) (View.ld x4 rB)⟩]

/-- Window 9's staging buffer after the body (the output gate): its one whole-block store, over the blocks read. -/
def out_9 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay4 (View.ld x0 rA) (View.ld x1 rA) (View.ld x3 rW) (View.ld x4 rB)⟩]

/-- Window 10's staging buffer after the body (the candidate): its one whole-block store, over the blocks read. -/
def out_10 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay5 (View.ld x0 rA) (View.ld x1 rA) (View.ld x3 rW) (View.ld x4 rB)⟩]

/-- One store through the whole-block rectangle covers the block. -/
theorem cover (p0 : Vec F S1024x256 .f32) (y : S1024x256.Idx) :
    ∃ pc ∈ ([⟨rA, p0⟩] : List (View.Piece (Elt F) S1024x256 .f32)), y ∈ pc.1.set :=
  View.cover_of_tiled [⟨rA, p0⟩] S1024x256.size (by rfl) y

/-! ## The body's triple -/

set_option maxHeartbeats 4000000 in
/-- The kernel body on whole staging memrefs, the five inputs' at contents `x0 … x4` and the six results' at anything,
    runs to the continuation holding the inputs' as they were and each result's at `out_w` of the inputs'. -/
theorem sound_kernel (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S512x1024 .bf16) (harg4 : arg4.IsWhole) (arg5 : Memref sig .tc .vmem S1024 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole)
    (x0 : Vec F S1024x256 .f32) (x1 : Vec F S1024x256 .f32) (x2 : Vec F S1024x256 .f32) (x3 : Vec F S512x1024 .bf16) (x4 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out_5 x0 x1 x2 x3 x4) ∗ owns (c : Thread nD τ) arg7 fullShare (out_6 x0 x1 x2 x3 x4) ∗ owns (c : Thread nD τ) arg8 fullShare (out_7 x0 x1 x2 x3 x4) ∗ owns (c : Thread nD τ) arg9 fullShare (out_8 x0 x1 x2 x3 x4) ∗ owns (c : Thread nD τ) arg10 fullShare (out_9 x0 x1 x2 x3 x4) ∗ owns (c : Thread nD τ) arg11 fullShare (out_10 x0 x1 x2 x3 x4)) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11) K := by
  simp only [cc0__lambda__eq_skeleton]; unfold cc0__lambda__skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover _)
  isplitl [H6]
  · iexists _; isplitr
    swap; · iexact H6
    ipureintro
    try dsimp only
    exact View.read_writes_eq_canon _ _ _ (cover _)
  isplitl [H7]
  · iexists _; isplitr
    swap; · iexact H7
    ipureintro
    try dsimp only
    exact View.read_writes_eq_canon _ _ _ (cover _)
  isplitl [H8]
  · iexists _; isplitr
    swap; · iexact H8
    ipureintro
    try dsimp only
    exact View.read_writes_eq_canon _ _ _ (cover _)
  isplitl [H9]
  · iexists _; isplitr
    swap; · iexact H9
    ipureintro
    try dsimp only
    exact View.read_writes_eq_canon _ _ _ (cover _)
  iexists _; isplitr
  swap; · iexact H10
  ipureintro
  try dsimp only
  exact View.read_writes_eq_canon _ _ _ (cover _)

/-! ## The pipeline's proof data -/

/-- The proof data of the pipeline on core `c`: the arrays as the region finds them; after the body at point `t` each
    input's buffer at its block and each result's at `out_w` of the five input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out_5 (iblk m c 0 t) (iblk m c 1 t) (iblk m c 2 t) (iblk m c 3 t) (iblk m c 4 t)
    | ⟨6, _⟩ => out_6 (iblk m c 0 t) (iblk m c 1 t) (iblk m c 2 t) (iblk m c 3 t) (iblk m c 4 t)
    | ⟨7, _⟩ => out_7 (iblk m c 0 t) (iblk m c 1 t) (iblk m c 2 t) (iblk m c 3 t) (iblk m c 4 t)
    | ⟨8, _⟩ => out_8 (iblk m c 0 t) (iblk m c 1 t) (iblk m c 2 t) (iblk m c 3 t) (iblk m c 4 t)
    | ⟨9, _⟩ => out_9 (iblk m c 0 t) (iblk m c 1 t) (iblk m c 2 t) (iblk m c 3 t) (iblk m c 4 t)
    | ⟨10, _⟩ => out_10 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out_5 (iblk m c 0 t) (iblk m c 1 t) (iblk m c 2 t) (iblk m c 3 t) (iblk m c 4 t) := by dsimp only [dats]
theorem after_6 (c : Dev nD) (t : Fin cfg0.N) : (dats m 0 c).after 6 t = out_6 (iblk m c 0 t) (iblk m c 1 t) (iblk m c 2 t) (iblk m c 3 t) (iblk m c 4 t) := by dsimp only [dats]
theorem after_7 (c : Dev nD) (t : Fin cfg0.N) : (dats m 0 c).after 7 t = out_7 (iblk m c 0 t) (iblk m c 1 t) (iblk m c 2 t) (iblk m c 3 t) (iblk m c 4 t) := by dsimp only [dats]
theorem after_8 (c : Dev nD) (t : Fin cfg0.N) : (dats m 0 c).after 8 t = out_8 (iblk m c 0 t) (iblk m c 1 t) (iblk m c 2 t) (iblk m c 3 t) (iblk m c 4 t) := by dsimp only [dats]
theorem after_9 (c : Dev nD) (t : Fin cfg0.N) : (dats m 0 c).after 9 t = out_9 (iblk m c 0 t) (iblk m c 1 t) (iblk m c 2 t) (iblk m c 3 t) (iblk m c 4 t) := by dsimp only [dats]
theorem after_10 (c : Dev nD) (t : Fin cfg0.N) : (dats m 0 c).after 10 t = out_10 (iblk m c 0 t) (iblk m c 1 t) (iblk m c 2 t) (iblk m c 3 t) (iblk m c 4 t) := by dsimp only [dats]

/-- Each input's current staging buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, and every final state has
    every array of the pipeline at what the write-backs assemble from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame statement of this program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Frame

end
-- ==== Proof.FrameIdeal.lean ====
/-
  The run of the one pallas_call of this program and what it leaves, at any float instance `F`.

  @main is four host operations — the four gate weight matrices stacked along the rows, the four gate bias vectors
  joined end to end, the stacked matrix transposed, and its change of format — and then the region: a grid of 64
  points, point `t` reading rows `1024·t … 1024·t + 1023` of the input, of the hidden state and of the cell state, the
  whole transposed weight matrix and the whole bias vector (both fetched once, at the first point), and writing
  the same rows of the six results. Each result block is ONE whole-block store of a pure function of the five
  blocks read, so what a result's staging buffer holds after the body is that function of the input blocks
  (`out_5 … out_10`); the body also reads each result buffer just before it overwrites it, and the value read is
  never used. From there: the proof data of the pipeline (`dats`), the body's triple and the obligation at a
  generic point, the run to the pipeline library's frame post (`run_main`: every result array at what the write-backs
  assemble, every other unscoped buffer as the region found it), and the frame statement itself (`frame`).
-/
import proofs.«161298_j80341658239358_1_alg».proof.Proof.Gen.KernelIdeal.Launch
import proofs.«161298_j80341658239358_1_alg».proof.Proof.Gen.KernelIdeal.Skeleton
import proofs.«161298_j80341658239358_1_alg».proof.Proof.Gen.KernelIdeal.Points
import Idealize.ShloMosaic.Lib.Pipeline.FrameBody
import Idealize.ShloMosaic.Lib.Ring
import Idealize.ShloMosaic.Lib.Tactic

-- membership in a rectangle of 1024 x 256 cells: the structural look recurses once per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four host operations. -/
abbrev V (c : Dev nD) (b : Ref sig .tc) : Buf (Elt F) ((c : Thread nD τ).loc b) := StableHlo.after hostOps0 (fun b => m (c, b)) b

/-- None of the four host operations allocates anything. -/
theorem hostOps0_fresh : (hostOps0 : List (HloOp τ sig (Elt F))).Forall fun op => op.fresh = ∅ := by
  simp only [List.Forall]; repeat' constructor

/-- @main is the four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0 … main_v3` only: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- The host operations write `main_v0 … main_v3` only: the region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not (a
    point that does not fetch it has the same block index as the one before), for any proof data over the region-entry
    arrays whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not (a
    point that does not fetch it has the same block index as the one before), for any proof data over the region-entry
    arrays whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not (a
    point that does not fetch it has the same block index as the one before), for any proof data over the region-entry
    arrays whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not (a
    point that does not fetch it has the same block index as the one before), for any proof data over the region-entry
    arrays whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not (a
    point that does not fetch it has the same block index as the one before), for any proof data over the region-entry
    arrays whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame statement from the frame run -/

/-- For any proof data over the region-entry arrays, a run to the library's frame post gives the frame statement:
    the three row-blocked inputs are windows' arrays and end as they were found, the eight weight and bias arguments
    are staged by no window and are kept by the post's second clause; each was found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev rA : Rect S1024x256 := Rect.unit (s := S1024x256) ![0, 0] S1024x256.size inb_S1024x256_S1024x256_0_0
abbrev rW : Rect S512x1024 := Rect.unit (s := S512x1024) ![0, 0] S512x1024.size inb_S512x1024_S512x1024_0_0
abbrev rB : Rect S1024 := Rect.unit (s := S1024) ![0] S1024.size inb_S1024_S1024_0

/-! ## What the body leaves in each result window's buffer -/

/-- Window 5's staging buffer after the body (the new hidden state): its one whole-block store, over the blocks read. -/
def out_5 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay7 (View.ld x0 rA) (View.ld x1 rA) (View.ld x2 rA) (View.ld x3 rW) (View.ld x4 rB)⟩]

/-- Window 6's staging buffer after the body (the new cell state): its one whole-block store, over the blocks read. -/
def out_6 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay6 (View.ld x0 rA) (View.ld x1 rA) (View.ld x2 rA) (View.ld x3 rW) (View.ld x4 rB)⟩]

/-- Window 7's staging buffer after the body (the forget gate): its one whole-block store, over the blocks read. -/
def out_7 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay2 (View.ld x0 rA) (View.ld x1 rA) (View.ld x3 rW) (View.ld x4 rB)⟩]

/-- Window 8's staging buffer after the body (the input gate): its one whole-block store, over the blocks read. -/
def out_8 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay3 (View.ld x0 rA) (View.ld x1 rA) (View.ld x3 rW) (View.ld x4 rB)⟩]

/-- Window 9's staging buffer after the body (the output gate): its one whole-block store, over the blocks read. -/
def out_9 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay4 (View.ld x0 rA) (View.ld x1 rA) (View.ld x3 rW) (View.ld x4 rB)⟩]

/-- Window 10's staging buffer after the body (the candidate): its one whole-block store, over the blocks read. -/
def out_10 (x0 : Vec F S1024x256 .f32) (x1 : Vec F S1024x256 .f32) (x2 : Vec F S1024x256 .f32) (x3 : Vec F S512x1024 .bf16) (x4 : Vec F S1024 .f32) : Vec F S1024x256 .f32 :=
  View.canon [⟨rA, k0_pay5 (View.ld x0 rA) (View.ld x1 rA) (View.ld x3 rW) (View.ld x4 rB)⟩]

/-- One store through the whole-block rectangle covers the block. -/
theorem cover (p0 : Vec F S1024x256 .f32) (y : S1024x256.Idx) :
    ∃ pc ∈ ([⟨rA, p0⟩] : List (View.Piece (Elt F) S1024x256 .f32)), y ∈ pc.1.set :=
  View.cover_of_tiled [⟨rA, p0⟩] S1024x256.size (by rfl) y

/-! ## The body's triple -/

set_option maxHeartbeats 4000000 in
/-- The kernel body on whole staging memrefs, the five inputs' at contents `x0 … x4` and the six results' at anything,
    runs to the continuation holding the inputs' as they were and each result's at `out_w` of the inputs'. -/
theorem sound_kernel (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S512x1024 .bf16) (harg4 : arg4.IsWhole) (arg5 : Memref sig .tc .vmem S1024 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole)
    (x0 : Vec F S1024x256 .f32) (x1 : Vec F S1024x256 .f32) (x2 : Vec F S1024x256 .f32) (x3 : Vec F S512x1024 .bf16) (x4 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out_5 x0 x1 x2 x3 x4) ∗ owns (c : Thread nD τ) arg7 fullShare (out_6 x0 x1 x2 x3 x4) ∗ owns (c : Thread nD τ) arg8 fullShare (out_7 x0 x1 x2 x3 x4) ∗ owns (c : Thread nD τ) arg9 fullShare (out_8 x0 x1 x2 x3 x4) ∗ owns (c : Thread nD τ) arg10 fullShare (out_9 x0 x1 x2 x3 x4) ∗ owns (c : Thread nD τ) arg11 fullShare (out_10 x0 x1 x2 x3 x4)) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11) K := by
  simp only [cc0__lambda__eq_skeleton]; unfold cc0__lambda__skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover _)
  isplitl [H6]
  · iexists _; isplitr
    swap; · iexact H6
    ipureintro
    try dsimp only
    exact View.read_writes_eq_canon _ _ _ (cover _)
  isplitl [H7]
  · iexists _; isplitr
    swap; · iexact H7
    ipureintro
    try dsimp only
    exact View.read_writes_eq_canon _ _ _ (cover _)
  isplitl [H8]
  · iexists _; isplitr
    swap; · iexact H8
    ipureintro
    try dsimp only
    exact View.read_writes_eq_canon _ _ _ (cover _)
  isplitl [H9]
  · iexists _; isplitr
    swap; · iexact H9
    ipureintro
    try dsimp only
    exact View.read_writes_eq_canon _ _ _ (cover _)
  iexists _; isplitr
  swap; · iexact H10
  ipureintro
  try dsimp only
  exact View.read_writes_eq_canon _ _ _ (cover _)

/-! ## The pipeline's proof data -/

/-- The proof data of the pipeline on core `c`: the arrays as the region finds them; after the body at point `t` each
    input's buffer at its block and each result's at `out_w` of the five input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out_5 (iblk m c 0 t) (iblk m c 1 t) (iblk m c 2 t) (iblk m c 3 t) (iblk m c 4 t)
    | ⟨6, _⟩ => out_6 (iblk m c 0 t) (iblk m c 1 t) (iblk m c 2 t) (iblk m c 3 t) (iblk m c 4 t)
    | ⟨7, _⟩ => out_7 (iblk m c 0 t) (iblk m c 1 t) (iblk m c 2 t) (iblk m c 3 t) (iblk m c 4 t)
    | ⟨8, _⟩ => out_8 (iblk m c 0 t) (iblk m c 1 t) (iblk m c 2 t) (iblk m c 3 t) (iblk m c 4 t)
    | ⟨9, _⟩ => out_9 (iblk m c 0 t) (iblk m c 1 t) (iblk m c 2 t) (iblk m c 3 t) (iblk m c 4 t)
    | ⟨10, _⟩ => out_10 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out_5 (iblk m c 0 t) (iblk m c 1 t) (iblk m c 2 t) (iblk m c 3 t) (iblk m c 4 t) := by dsimp only [dats]
theorem after_6 (c : Dev nD) (t : Fin cfg0.N) : (dats m 0 c).after 6 t = out_6 (iblk m c 0 t) (iblk m c 1 t) (iblk m c 2 t) (iblk m c 3 t) (iblk m c 4 t) := by dsimp only [dats]
theorem after_7 (c : Dev nD) (t : Fin cfg0.N) : (dats m 0 c).after 7 t = out_7 (iblk m c 0 t) (iblk m c 1 t) (iblk m c 2 t) (iblk m c 3 t) (iblk m c 4 t) := by dsimp only [dats]
theorem after_8 (c : Dev nD) (t : Fin cfg0.N) : (dats m 0 c).after 8 t = out_8 (iblk m c 0 t) (iblk m c 1 t) (iblk m c 2 t) (iblk m c 3 t) (iblk m c 4 t) := by dsimp only [dats]
theorem after_9 (c : Dev nD) (t : Fin cfg0.N) : (dats m 0 c).after 9 t = out_9 (iblk m c 0 t) (iblk m c 1 t) (iblk m c 2 t) (iblk m c 3 t) (iblk m c 4 t) := by dsimp only [dats]
theorem after_10 (c : Dev nD) (t : Fin cfg0.N) : (dats m 0 c).after 10 t = out_10 (iblk m c 0 t) (iblk m c 1 t) (iblk m c 2 t) (iblk m c 3 t) (iblk m c 4 t) := by dsimp only [dats]

/-- Each input's current staging buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, and every final state has
    every array of the pipeline at what the write-backs assemble from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame statement of this program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Frame

end
-- ==== Proof.Spec.lean ====
/-
  One step of a long short-term memory cell over the extended reals, as ONE function of the argument arrays, index by
  index — what both programs of this certificate compute at the ideal instance.

  Row `r` of the input `X` and of the previous hidden state `H` are laid side by side (512 entries, `joined`), multiplied
  into column `n` of the 512 x 1024 matrix `Wt` (the four gates' weight matrices stacked and transposed) and the bias
  `bb n` is added (`gate`). Columns 0–255 are the forget gate's pre-activation, 256–511 the input gate's, 512–767 the
  output gate's, 768–1023 the candidate's; the first three go through the logistic function, the last through tanh.
  The new cell state is `f · c + i · g` and the new hidden state `o · tanh` of it.

  Everything about row `r` depends on row `r` of `X`, `H` and `C` only (`gate_rows` and the lemmas after it): a block of
  rows of the results is the same function of the same block of rows of the arguments, which is how a program that
  walks the rows 1024 at a time meets one that takes them all at once. No law of arithmetic is needed beyond that:
  the two programs form the same sums in the same arrangement.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Cell

open Idealize.ShloMosaic Idealize.ShloMosaic.ValueIdx

/-! ## A matrix by its rows, a vector by its entries -/

/-- A two-axis array read by its two coordinates. -/
def rows {a b : Nat} (x : (⟨2, ![a, b]⟩ : Shape).Idx → EReal) : Fin a → Fin b → EReal := fun r q => x (ix2 r q)
/-- A one-axis array read by its coordinate. -/
def vec {n : Nat} (x : (⟨1, ![n]⟩ : Shape).Idx → EReal) : Fin n → EReal := fun i => x (ix1 i)

/-! ## The cell -/

variable {R : Nat}

/-- Row `r` of `X` followed by row `r` of `H`. -/
def joined (X H : Fin R → Fin 256 → EReal) (r : Fin R) (k : Fin 512) : EReal :=
  if hk : k.val < 256 then X r ⟨k.val, hk⟩ else H r ⟨k.val - 256, by have := k.isLt; omega⟩

/-- The pre-activation in column `n` of row `r`: the joined row times column `n` of `Wt`, plus the bias. -/
def gate (X H : Fin R → Fin 256 → EReal) (Wt : Fin 512 → Fin 1024 → EReal) (bb : Fin 1024 → EReal) (r : Fin R) (n : Fin 1024) : EReal :=
  (∑ k : Fin 512, joined X H r k * Wt k n) + bb n

/-- Column `q` of the gate that starts at column `off`. -/
def col (off : Nat) (hoff : off + 256 ≤ 1024) (q : Fin 256) : Fin 1024 := ⟨off + q.val, by have := q.isLt; omega⟩

/-- The forget gate. -/
def forgetGate (X H : Fin R → Fin 256 → EReal) (Wt : Fin 512 → Fin 1024 → EReal) (bb : Fin 1024 → EReal) (r : Fin R) (q : Fin 256) : EReal :=
  Ideal.logistic (gate X H Wt bb r (col 0 (by omega) q))
/-- The input gate. -/
def inputGate (X H : Fin R → Fin 256 → EReal) (Wt : Fin 512 → Fin 1024 → EReal) (bb : Fin 1024 → EReal) (r : Fin R) (q : Fin 256) : EReal :=
  Ideal.logistic (gate X H Wt bb r (col 256 (by omega) q))
/-- The output gate. -/
def outputGate (X H : Fin R → Fin 256 → EReal) (Wt : Fin 512 → Fin 1024 → EReal) (bb : Fin 1024 → EReal) (r : Fin R) (q : Fin 256) : EReal :=
  Ideal.logistic (gate X H Wt bb r (col 512 (by omega) q))
/-- The candidate. -/
def candidate (X H : Fin R → Fin 256 → EReal) (Wt : Fin 512 → Fin 1024 → EReal) (bb : Fin 1024 → EReal) (r : Fin R) (q : Fin 256) : EReal :=
  Ideal.tanh (gate X H Wt bb r (col 768 (by omega) q))
/-- The new cell state. -/
def cellNext (X H C : Fin R → Fin 256 → EReal) (Wt : Fin 512 → Fin 1024 → EReal) (bb : Fin 1024 → EReal) (r : Fin R) (q : Fin 256) : EReal :=
  forgetGate X H Wt bb r q * C r q + inputGate X H Wt bb r q * candidate X H Wt bb r q
/-- The new hidden state. -/
def hiddenNext (X H C : Fin R → Fin 256 → EReal) (Wt : Fin 512 → Fin 1024 → EReal) (bb : Fin 1024 → EReal) (r : Fin R) (q : Fin 256) : EReal :=
  outputGate X H Wt bb r q * Ideal.tanh (cellNext X H C Wt bb r q)

/-! ## Row by row -/

variable {R' : Nat}

/-- The pre-activations of a row depend on that row of `X` and of `H` only. -/
theorem gate_rows (X H : Fin R → Fin 256 → EReal) (X' H' : Fin R' → Fin 256 → EReal) (Wt : Fin 512 → Fin 1024 → EReal) (bb : Fin 1024 → EReal)
    (r : Fin R) (r' : Fin R') (hX : ∀ q, X r q = X' r' q) (hH : ∀ q, H r q = H' r' q) (n : Fin 1024) :
    gate X H Wt bb r n = gate X' H' Wt bb r' n := by
  unfold gate
  refine congrArg (· + bb n) (Finset.sum_congr rfl fun k _ => ?_)
  refine congrArg (· * Wt k n) ?_
  unfold joined
  by_cases hk : k.val < 256
  · rw [dif_pos hk, dif_pos hk]; exact hX _
  · rw [dif_neg hk, dif_neg hk]; exact hH _

theorem forgetGate_rows (X H : Fin R → Fin 256 → EReal) (X' H' : Fin R' → Fin 256 → EReal) (Wt : Fin 512 → Fin 1024 → EReal) (bb : Fin 1024 → EReal)
    (r : Fin R) (r' : Fin R') (hX : ∀ q, X r q = X' r' q) (hH : ∀ q, H r q = H' r' q) (q : Fin 256) :
    forgetGate X H Wt bb r q = forgetGate X' H' Wt bb r' q := by
  unfold forgetGate; rw [gate_rows X H X' H' Wt bb r r' hX hH]
theorem inputGate_rows (X H : Fin R → Fin 256 → EReal) (X' H' : Fin R' → Fin 256 → EReal) (Wt : Fin 512 → Fin 1024 → EReal) (bb : Fin 1024 → EReal)
    (r : Fin R) (r' : Fin R') (hX : ∀ q, X r q = X' r' q) (hH : ∀ q, H r q = H' r' q) (q : Fin 256) :
    inputGate X H Wt bb r q = inputGate X' H' Wt bb r' q := by
  unfold inputGate; rw [gate_rows X H X' H' Wt bb r r' hX hH]
theorem outputGate_rows (X H : Fin R → Fin 256 → EReal) (X' H' : Fin R' → Fin 256 → EReal) (Wt : Fin 512 → Fin 1024 → EReal) (bb : Fin 1024 → EReal)
    (r : Fin R) (r' : Fin R') (hX : ∀ q, X r q = X' r' q) (hH : ∀ q, H r q = H' r' q) (q : Fin 256) :
    outputGate X H Wt bb r q = outputGate X' H' Wt bb r' q := by
  unfold outputGate; rw [gate_rows X H X' H' Wt bb r r' hX hH]
theorem candidate_rows (X H : Fin R → Fin 256 → EReal) (X' H' : Fin R' → Fin 256 → EReal) (Wt : Fin 512 → Fin 1024 → EReal) (bb : Fin 1024 → EReal)
    (r : Fin R) (r' : Fin R') (hX : ∀ q, X r q = X' r' q) (hH : ∀ q, H r q = H' r' q) (q : Fin 256) :
    candidate X H Wt bb r q = candidate X' H' Wt bb r' q := by
  unfold candidate; rw [gate_rows X H X' H' Wt bb r r' hX hH]
theorem cellNext_rows (X H C : Fin R → Fin 256 → EReal) (X' H' C' : Fin R' → Fin 256 → EReal) (Wt : Fin 512 → Fin 1024 → EReal) (bb : Fin 1024 → EReal)
    (r : Fin R) (r' : Fin R') (hX : ∀ q, X r q = X' r' q) (hH : ∀ q, H r q = H' r' q) (hC : ∀ q, C r q = C' r' q) (q : Fin 256) :
    cellNext X H C Wt bb r q = cellNext X' H' C' Wt bb r' q := by
  unfold cellNext
  rw [forgetGate_rows X H X' H' Wt bb r r' hX hH, inputGate_rows X H X' H' Wt bb r r' hX hH, candidate_rows X H X' H' Wt bb r r' hX hH, hC]
theorem hiddenNext_rows (X H C : Fin R → Fin 256 → EReal) (X' H' C' : Fin R' → Fin 256 → EReal) (Wt : Fin 512 → Fin 1024 → EReal) (bb : Fin 1024 → EReal)
    (r : Fin R) (r' : Fin R') (hX : ∀ q, X r q = X' r' q) (hH : ∀ q, H r q = H' r' q) (hC : ∀ q, C r q = C' r' q) (q : Fin 256) :
    hiddenNext X H C Wt bb r q = hiddenNext X' H' C' Wt bb r' q := by
  unfold hiddenNext
  rw [outputGate_rows X H X' H' Wt bb r r' hX hH, cellNext_rows X H C X' H' C' Wt bb r r' hX hH hC]

/-! ## The six result arrays -/

/-- The arrays' shapes. -/
abbrev RowsBy256 (R : Nat) : Shape := ⟨2, ![R, 256]⟩
abbrev Wshape : Shape := ⟨2, ![512, 1024]⟩
abbrev Bshape : Shape := ⟨1, ![1024]⟩

def hiddenArr (x h c : (RowsBy256 R).Idx → EReal) (wt : Wshape.Idx → EReal) (b : Bshape.Idx → EReal) : (RowsBy256 R).Idx → EReal :=
  fun j => hiddenNext (rows x) (rows h) (rows c) (rows wt) (vec b) (j 0) (j 1)
def cellArr (x h c : (RowsBy256 R).Idx → EReal) (wt : Wshape.Idx → EReal) (b : Bshape.Idx → EReal) : (RowsBy256 R).Idx → EReal :=
  fun j => cellNext (rows x) (rows h) (rows c) (rows wt) (vec b) (j 0) (j 1)
def forgetArr (x h : (RowsBy256 R).Idx → EReal) (wt : Wshape.Idx → EReal) (b : Bshape.Idx → EReal) : (RowsBy256 R).Idx → EReal :=
  fun j => forgetGate (rows x) (rows h) (rows wt) (vec b) (j 0) (j 1)
def inputArr (x h : (RowsBy256 R).Idx → EReal) (wt : Wshape.Idx → EReal) (b : Bshape.Idx → EReal) : (RowsBy256 R).Idx → EReal :=
  fun j => inputGate (rows x) (rows h) (rows wt) (vec b) (j 0) (j 1)
def outputArr (x h : (RowsBy256 R).Idx → EReal) (wt : Wshape.Idx → EReal) (b : Bshape.Idx → EReal) : (RowsBy256 R).Idx → EReal :=
  fun j => outputGate (rows x) (rows h) (rows wt) (vec b) (j 0) (j 1)
def candidateArr (x h : (RowsBy256 R).Idx → EReal) (wt : Wshape.Idx → EReal) (b : Bshape.Idx → EReal) : (RowsBy256 R).Idx → EReal :=
  fun j => candidate (rows x) (rows h) (rows wt) (vec b) (j 0) (j 1)

/-! ## Two rows side by side, as the programs spell it -/

/-- A concatenation of two `[R, 256]` arrays along the second axis, read at row `r` and column `k`, is the joined row. -/
theorem concat_joined (x h : (RowsBy256 R).Idx → EReal)
    (hc : Shape.Concatenates [RowsBy256 R, RowsBy256 R] (⟨2, ![R, 512]⟩ : Shape) 1) (j : (⟨2, ![R, 512]⟩ : Shape).Idx) :
    concatenate (⟨2, ![R, 512]⟩ : Shape) 1 [⟨RowsBy256 R, x⟩, ⟨RowsBy256 R, h⟩] hc j = joined (rows x) (rows h) (j 0) (j 1) := by
  unfold joined rows
  by_cases hk : (j 1).val < 256
  · rw [dif_pos hk]
    exact concatenate_pair_apply_left (1 : Fin 2) x h hc j rfl (ix2 (j 0) ⟨(j 1).val, hk⟩) (fun b => match b with
      | ⟨0, _⟩ => rfl
      | ⟨1, _⟩ => rfl)
  · rw [dif_neg hk]
    refine concatenate_pair_apply_right (1 : Fin 2) x h hc j rfl rfl (ix2 (j 0) ⟨(j 1).val - 256, by have := idx2_lt1 j; omega⟩) (fun b => match b with
      | ⟨0, _⟩ => fun _ => rfl
      | ⟨1, _⟩ => fun hne => absurd rfl hne) ?_
    show (j 1).val - 256 + 256 = (j 1).val
    omega

/-! ## The constant one -/

/-- The float `1.0` denotes the real one. -/
theorem one_f32 : Ideal.ofBits .f32 0x3F800000#32 = 1 := by
  simp [Ideal.ofBits, Ideal.ieee, -EReal.coe_mul]; norm_num

/-- `1 / (1 + e^(-y))`, spelt with the constant's word, is the logistic function. -/
theorem logistic_spelt (y : EReal) :
    Ideal.div (Ideal.ofBits .f32 0x3F800000#32) (Ideal.ofBits .f32 0x3F800000#32 + Ideal.exp (-y)) = Ideal.logistic y := by
  rw [one_f32]; rfl

end Cert.Cell

end
-- ==== Proof.KernelPayload.lean ====
/-
  The body's arithmetic at one entry of a block, at the ideal instance: each of the seven named values the body
  computes from the blocks it loads — 1024 rows of the input `v0`, of the hidden state `v1` and of the cell state
  `v2`, the whole 512 x 1024 weight matrix `v5` and the whole bias vector `v8` — is the long short-term memory
  cell of Spec.lean on those 1024 rows. The matrix product into a zero accumulator is the plain sum over the 512
  joined entries; the change of format in front of it is the identity on extended reals; the bias is the vector
  reshaped to one row and repeated down the rows; the four gates are the four 256-column bands of the sum.
-/
import proofs.«161298_j80341658239358_1_alg».proof.Proof.Gen.KernelIdeal.Skeleton
import proofs.«161298_j80341658239358_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Cert.Cell Idealize.ShloMosaic Idealize.ShloMosaic.ValueIdx

/-! ## The matrix product at an entry -/

theorem lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of a 1024 x 512 block and the 512 x 1024 matrix, accumulated from zero, at row `p` and column `n`: the sum
    over the 512 shared entries of row `p` of the left factor times column `n` of the right. -/
theorem matmul_at (l : FVec Ideal S1024x512 .bf16) (r : FVec Ideal S512x1024 .bf16) (p : Fin 1024) (n : Fin 1024) :
    matmul dot_S1024x512_S512x1024_S1024x1024_1_0_0_1_n_n none l r (constant (F := Ideal) S1024x1024 .f32 0x00000000#32) (ix2 p n)
      = ∑ k : Fin 512, l (ix2 p k) * r (ix2 k n) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p n) ((ValueIdx.contrEquiv1 dot_S1024x512_S512x1024_S1024x1024_1_0_0_1_n_n 512 rfl rfl).symm k) = ix2 p k := funext fun a => Fin.ext (by
    match a with
    | ⟨0, _⟩ => exact lhs_0 _ _
    | ⟨1, _⟩ => exact (lhs_1 _ _).trans hk)
  have er : dot_S1024x512_S512x1024_S1024x1024_1_0_0_1_n_n.rhsIdx (ix2 p n) ((ValueIdx.contrEquiv1 dot_S1024x512_S512x1024_S1024x1024_1_0_0_1_n_n 512 rfl rfl).symm k) = ix2 k n := funext fun a => Fin.ext (by
    match a with
    | ⟨0, _⟩ => exact (rhs_0 _ _).trans hk
    | ⟨1, _⟩ => exact rhs_1 _ _)
  rw [el, er]

/-! ## The bias repeated down the rows -/

/-- The bias vector as one row, repeated down 1024 rows, at row `p` and column `n` is its entry `n`. -/
theorem bias_at (v8 : FVec Ideal S1024 .f32) (p : Fin 1024) (n : Fin 1024) :
    broadcastTo S1024x1024 (shapeCast S1x1024 (shapeCast S1024 v8 shapeCasts_S1024_S1024) shapeCasts_S1024_S1x1024) broadcasts_S1x1024_S1024x1024 (ix2 p n)
      = v8 (ix1 n) := by
  rw [shapeCast_self]
  refine (broadcastTo_apply _ broadcasts_S1x1024_S1024x1024 (ix2 p n) (ix2 (0 : Fin 1) n) (fun a => match a with
    | ⟨0, _⟩ => by show (0 : Nat) = if (1 : Nat) = 1 then 0 else _; rw [if_pos rfl]
    | ⟨1, _⟩ => by show n.val = if (1024 : Nat) = 1 then 0 else n.val; rw [if_neg (by decide)])).trans ?_
  refine (shapeCast_addUnit_apply ![1024] v8 shapeCasts_S1024_S1x1024 (ix2 (0 : Fin 1) n)).trans ?_
  exact congrArg v8 (funext fun a => match a with | ⟨0, _⟩ => rfl)

/-! ## The pre-activations -/

/-- The body's sum-plus-bias at row `p` and column `n` of the block is the cell's pre-activation there. -/
theorem pay1_at (v0 v1 : Vec Ideal S1024x256 .f32) (v5 : Vec Ideal S512x1024 .bf16) (v8 : Vec Ideal S1024 .f32) (p : Fin 1024) (n : Fin 1024) :
    k0_pay1 (F := Ideal) v0 v1 v5 v8 (ix2 p n) = gate (rows v0) (rows v1) (rows v5) (vec v8) p n := by
  unfold k0_pay1 gate
  refine (addf_apply _ _ _).trans ?_
  refine congrArg₂ (· + ·) ((matmul_at _ _ p n).trans ?_) (bias_at v8 p n)
  refine Finset.sum_congr rfl fun k _ => ?_
  rw [shapeCast_self]
  exact congrArg (· * v5 (ix2 k n)) (concat_joined v0 v1 concatenates_S1024x256_S1024x256_S1024x512_d1 (ix2 p k))

/-! ## The six stored values -/

/-- A 256-column band of the pre-activations, at row `p` and column `q` of the band. -/
theorem band_at (off : Nat) (hoff : off + 256 ≤ 1024) (hs : S1024x1024.Slices ![0, off] S1024x256)
    (v0 v1 : Vec Ideal S1024x256 .f32) (v5 : Vec Ideal S512x1024 .bf16) (v8 : Vec Ideal S1024 .f32) (p : Fin 1024) (q : Fin 256) :
    extractStridedSlice S1024x256 ![0, off] (k0_pay1 (F := Ideal) v0 v1 v5 v8) hs (ix2 p q)
      = gate (rows v0) (rows v1) (rows v5) (vec v8) p (col off hoff q) := by
  refine (extractStridedSlice_apply ![0, off] _ hs (ix2 p q) (ix2 p (col off hoff q)) (fun a => match a with
    | ⟨0, _⟩ => by show p.val = 0 + p.val; omega
    | ⟨1, _⟩ => by show off + q.val = off + q.val; rfl)).trans ?_
  exact pay1_at v0 v1 v5 v8 p (col off hoff q)

theorem pay2_eq (v0 v1 : Vec Ideal S1024x256 .f32) (v5 : Vec Ideal S512x1024 .bf16) (v8 : Vec Ideal S1024 .f32) :
    k0_pay2 (F := Ideal) v0 v1 v5 v8 = forgetArr (R := 1024) v0 v1 v5 v8 := by
  funext j
  obtain ⟨p, q, rfl⟩ : ∃ (p : Fin 1024) (q : Fin 256), j = ix2 p q := ⟨j 0, j 1, eq_ix2 j⟩
  unfold k0_pay2 forgetArr forgetGate
  exact congrArg Ideal.logistic (band_at 0 (by omega) slices_S1024x1024_o0_0_S1024x256 v0 v1 v5 v8 p q)

theorem pay3_eq (v0 v1 : Vec Ideal S1024x256 .f32) (v5 : Vec Ideal S512x1024 .bf16) (v8 : Vec Ideal S1024 .f32) :
    k0_pay3 (F := Ideal) v0 v1 v5 v8 = inputArr (R := 1024) v0 v1 v5 v8 := by
  funext j
  obtain ⟨p, q, rfl⟩ : ∃ (p : Fin 1024) (q : Fin 256), j = ix2 p q := ⟨j 0, j 1, eq_ix2 j⟩
  unfold k0_pay3 inputArr inputGate
  exact congrArg Ideal.logistic (band_at 256 (by omega) slices_S1024x1024_o0_256_S1024x256 v0 v1 v5 v8 p q)

theorem pay4_eq (v0 v1 : Vec Ideal S1024x256 .f32) (v5 : Vec Ideal S512x1024 .bf16) (v8 : Vec Ideal S1024 .f32) :
    k0_pay4 (F := Ideal) v0 v1 v5 v8 = outputArr (R := 1024) v0 v1 v5 v8 := by
  funext j
  obtain ⟨p, q, rfl⟩ : ∃ (p : Fin 1024) (q : Fin 256), j = ix2 p q := ⟨j 0, j 1, eq_ix2 j⟩
  unfold k0_pay4 outputArr outputGate
  exact congrArg Ideal.logistic (band_at 512 (by omega) slices_S1024x1024_o0_512_S1024x256 v0 v1 v5 v8 p q)

theorem pay5_eq (v0 v1 : Vec Ideal S1024x256 .f32) (v5 : Vec Ideal S512x1024 .bf16) (v8 : Vec Ideal S1024 .f32) :
    k0_pay5 (F := Ideal) v0 v1 v5 v8 = candidateArr (R := 1024) v0 v1 v5 v8 := by
  funext j
  obtain ⟨p, q, rfl⟩ : ∃ (p : Fin 1024) (q : Fin 256), j = ix2 p q := ⟨j 0, j 1, eq_ix2 j⟩
  unfold k0_pay5 candidateArr candidate
  exact congrArg Ideal.tanh (band_at 768 (by omega) slices_S1024x1024_o0_768_S1024x256 v0 v1 v5 v8 p q)

theorem pay6_eq (v0 v1 v2 : Vec Ideal S1024x256 .f32) (v5 : Vec Ideal S512x1024 .bf16) (v8 : Vec Ideal S1024 .f32) :
    k0_pay6 (F := Ideal) v0 v1 v2 v5 v8 = cellArr (R := 1024) v0 v1 v2 v5 v8 := by
  funext j
  obtain ⟨p, q, rfl⟩ : ∃ (p : Fin 1024) (q : Fin 256), j = ix2 p q := ⟨j 0, j 1, eq_ix2 j⟩
  unfold k0_pay6
  rw [pay2_eq, pay3_eq, pay5_eq]
  rfl

theorem pay7_eq (v0 v1 v2 : Vec Ideal S1024x256 .f32) (v5 : Vec Ideal S512x1024 .bf16) (v8 : Vec Ideal S1024 .f32) :
    k0_pay7 (F := Ideal) v0 v1 v2 v5 v8 = hiddenArr (R := 1024) v0 v1 v2 v5 v8 := by
  funext j
  obtain ⟨p, q, rfl⟩ : ∃ (p : Fin 1024) (q : Fin 256), j = ix2 p q := ⟨j 0, j 1, eq_ix2 j⟩
  unfold k0_pay7
  rw [pay4_eq, pay6_eq]
  rfl

end Cert.KernelIdeal.Pay

end
-- ==== Proof.KernelValue.lean ====
/-
  From blocks to arrays, at the ideal instance: after the run each of the six result arrays IS the long short-term
  memory cell of Spec.lean on the whole argument arrays.

  Point `t` of the grid reads rows `1024·t … 1024·t + 1023` of the input, the hidden state and the cell state (their
  block index along the rows is `t`, along the columns 0), the whole weight matrix and the whole bias vector (block
  index 0 at every point), and writes back the same rows of each result. What it writes back is the cell on the 1024
  rows it read (KernelPayload.lean), and the cell works row by row (Spec.lean), so that is rows `1024·t …` of the cell
  on the whole arrays: each write-back is the block of ONE whole-array function. The 64 blocks cover the 65536 rows —
  row `r` lies in block `r / 1024` — so the array ends as that function. The weight matrix and the bias vector the
  region finds are what the four host operations in front of it computed from the arguments: the four weight
  matrices stacked along the rows and transposed (the change of format after it is the identity here), and the
  four bias vectors joined end to end.
-/
import proofs.«161298_j80341658239358_1_alg».proof.Proof.FrameIdeal
import proofs.«161298_j80341658239358_1_alg».proof.Proof.KernelPayload
import Idealize.ShloMosaic.Lib.Pipeline.Value
import Idealize.ShloMosaic.Lib.StableHlo.Run

noncomputable section

namespace Cert.KernelIdeal.KValue

open Cert.KernelIdeal Cert.KernelIdeal.Gen Cert.KernelIdeal.Frame Cert.Cell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where the blocks sit -/

theorem hz : (![0, 0] : Fin 2 → Nat) = fun _ => 0 := funext fun a => by fin_cases a <;> rfl
theorem hz1 : (![0] : Fin 1 → Nat) = fun _ => 0 := funext fun a => by fin_cases a <;> rfl

/-- The row-blocked windows' block index at point `t` is `(t, 0)`; the whole-array windows' is zero. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- A grid point is below 64. -/
theorem point_lt (t : Fin cfg0.N) : t.val < 64 := by
  have h := t.isLt
  have e : cfg0.N = 64 := N_0
  omega

/-- Row `p` of point `t`'s block is row `1024·t + p` of the array. -/
def grow (t : Fin cfg0.N) (p : Fin 1024) : Fin 65536 := ⟨t.val * 1024 + p.val, by have := point_lt t; have := p.isLt; omega⟩

/-! ## The input blocks, read -/

theorem blk_0 (c : Dev nD) (t : Fin cfg0.N) (p : Fin 1024) (q : Fin 256) :
    iblk m c 0 t (ix2 p q) = V m c main_arg0 (ix2 (grow t p) q) := by
  show V m c main_arg0 (((cfg0.win 0).blk t).view.emb (ix2 p q)) = V m c main_arg0 (ix2 (grow t p) q)
  refine congrArg _ (funext fun a => Fin.ext ?_)
  obtain ⟨e0, e1, e2, e3, e4, e5, e6, e7, e8, e9, e10⟩ := idx_facts t
  match a with
  | ⟨0, _⟩ => show win0_0.index t (0 : Fin 2) * 1024 + 1 * p.val = t.val * 1024 + p.val; omega
  | ⟨1, _⟩ => show win0_0.index t (1 : Fin 2) * 256 + 1 * q.val = q.val; omega
theorem blk_1 (c : Dev nD) (t : Fin cfg0.N) (p : Fin 1024) (q : Fin 256) :
    iblk m c 1 t (ix2 p q) = V m c main_arg1 (ix2 (grow t p) q) := by
  show V m c main_arg1 (((cfg0.win 1).blk t).view.emb (ix2 p q)) = V m c main_arg1 (ix2 (grow t p) q)
  refine congrArg _ (funext fun a => Fin.ext ?_)
  obtain ⟨e0, e1, e2, e3, e4, e5, e6, e7, e8, e9, e10⟩ := idx_facts t
  match a with
  | ⟨0, _⟩ => show win0_1.index t (0 : Fin 2) * 1024 + 1 * p.val = t.val * 1024 + p.val; omega
  | ⟨1, _⟩ => show win0_1.index t (1 : Fin 2) * 256 + 1 * q.val = q.val; omega
theorem blk_2 (c : Dev nD) (t : Fin cfg0.N) (p : Fin 1024) (q : Fin 256) :
    iblk m c 2 t (ix2 p q) = V m c main_arg2 (ix2 (grow t p) q) := by
  show V m c main_arg2 (((cfg0.win 2).blk t).view.emb (ix2 p q)) = V m c main_arg2 (ix2 (grow t p) q)
  refine congrArg _ (funext fun a => Fin.ext ?_)
  obtain ⟨e0, e1, e2, e3, e4, e5, e6, e7, e8, e9, e10⟩ := idx_facts t
  match a with
  | ⟨0, _⟩ => show win0_2.index t (0 : Fin 2) * 1024 + 1 * p.val = t.val * 1024 + p.val; omega
  | ⟨1, _⟩ => show win0_2.index t (1 : Fin 2) * 256 + 1 * q.val = q.val; omega
/-- The weight window's block is the whole matrix, at every point. -/
theorem blk_3 (c : Dev nD) (t : Fin cfg0.N) : iblk m c 3 t = V m c main_v3 := by
  funext y
  obtain ⟨k, n, rfl⟩ : ∃ (k : Fin 512) (n : Fin 1024), y = ix2 k n := ⟨y 0, y 1, eq_ix2 y⟩
  show V m c main_v3 (((cfg0.win 3).blk t).view.emb (ix2 k n)) = V m c main_v3 (ix2 k n)
  refine congrArg _ (funext fun a => Fin.ext ?_)
  obtain ⟨e0, e1, e2, e3, e4, e5, e6, e7, e8, e9, e10⟩ := idx_facts t
  match a with
  | ⟨0, _⟩ => show win0_3.index t (0 : Fin 2) * 512 + 1 * k.val = k.val; omega
  | ⟨1, _⟩ => show win0_3.index t (1 : Fin 2) * 1024 + 1 * n.val = n.val; omega
/-- The bias window's block is the whole vector, at every point. -/
theorem blk_4 (c : Dev nD) (t : Fin cfg0.N) : iblk m c 4 t = V m c main_v1 := by
  funext y
  obtain ⟨n, rfl⟩ : ∃ (n : Fin 1024), y = ix1 n := ⟨y 0, eq_ix1 y⟩
  show V m c main_v1 (((cfg0.win 4).blk t).view.emb (ix1 n)) = V m c main_v1 (ix1 n)
  refine congrArg _ (funext fun a => Fin.ext ?_)
  obtain ⟨e0, e1, e2, e3, e4, e5, e6, e7, e8, e9, e10⟩ := idx_facts t
  match a with
  | ⟨0, _⟩ => show win0_4.index t (0 : Fin 1) * 1024 + 1 * n.val = n.val; omega

/-! ## What each point writes back, the cover, and the array after the run -/

/-- Point `t` writes back to result 0 block `t` of `hiddenArr` of the arrays the region finds. -/
theorem flushed_5 (c : Dev nD) (t : Fin cfg0.N) :
    (dats m 0 c).flushed 5 t = ((cfg0.win 5).blk t).view.read (Elt Ideal) (hiddenArr (R := 65536) (V m c main_arg0) (V m c main_arg1) (V m c main_arg2) (V m c main_v3) (V m c main_v1)) := by
  show (cfg0.win 5).cut (grid0.coords t) ((dats m 0 c).after 5 t) = _
  rw [after_5]
  unfold out_5
  rw [View.canon_unit_zero hz]
  simp only [View.ld_unit_zero (S := S1024x256) hz, View.ld_unit_zero (S := S512x1024) hz, View.ld_unit_zero (S := S1024) hz1]
  rw [Pay.pay7_eq, blk_3, blk_4]
  funext y
  obtain ⟨p, q, rfl⟩ : ∃ (p : Fin 1024) (q : Fin 256), y = ix2 p q := ⟨y 0, y 1, eq_ix2 y⟩
  have hemb : ((cfg0.win 5).blk t).view.emb (ix2 p q) = ix2 (grow t p) q := by
    refine funext fun a => Fin.ext ?_
    obtain ⟨e0, e1, e2, e3, e4, e5, e6, e7, e8, e9, e10⟩ := idx_facts t
    match a with
    | ⟨0, _⟩ => show win0_5.index t (0 : Fin 2) * 1024 + 1 * p.val = t.val * 1024 + p.val; omega
    | ⟨1, _⟩ => show win0_5.index t (1 : Fin 2) * 256 + 1 * q.val = q.val; omega
  show hiddenArr (R := 1024) (iblk m c 0 t) (iblk m c 1 t) (iblk m c 2 t) (V m c main_v3) (V m c main_v1) (ix2 p q)
    = hiddenArr (R := 65536) (V m c main_arg0) (V m c main_arg1) (V m c main_arg2) (V m c main_v3) (V m c main_v1) (((cfg0.win 5).blk t).view.emb (ix2 p q))
  rw [hemb]
  exact hiddenNext_rows _ _ _ _ _ _ _ _ p (grow t p) (fun q => blk_0 m c t p q) (fun q => blk_1 m c t p q) (fun q => blk_2 m c t p q) q

/-- An index of result 0's array is in point `t`'s block iff each coordinate is in the block's range on its axis. -/
theorem mem_blk_5 (t : Fin cfg0.N) (i : S65536x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v4_0).slice (win0_5.rect t)).set ↔ _
  rw [View.set_slice_whole, Rect.mem_set_unit]
  exact Iff.rfl

/-- Every index of result 0's array lies in the block of the point its row divided by 1024 names, which is written back. -/
theorem cover_5 (i : S65536x256.Idx) : ∃ t : Fin cfg0.N, (cfg0.win 5).flush t = true ∧ i ∈ ((cfg0.win 5).blk t).view.set := by
  have hi0 : (i 0).val < 65536 := (i 0).isLt
  have hi1 : (i 1).val < 256 := (i 1).isLt
  have hN : cfg0.N = 64 := N_0
  refine ⟨⟨(i 0).val / 1024, by omega⟩, flush0_5 _, ?_⟩
  rw [mem_blk_5]
  obtain ⟨e0, e1, e2, e3, e4, e5, e6, e7, e8, e9, e10⟩ := idx_facts ⟨(i 0).val / 1024, by omega⟩
  intro a
  match a with
  | ⟨0, _⟩ =>
    show win0_5.index ⟨(i 0).val / 1024, _⟩ (0 : Fin 2) * 1024 ≤ (i 0).val ∧ (i 0).val < win0_5.index ⟨(i 0).val / 1024, _⟩ (0 : Fin 2) * 1024 + 1024
    rw [e5.1]; show (i 0).val / 1024 * 1024 ≤ (i 0).val ∧ (i 0).val < (i 0).val / 1024 * 1024 + 1024; omega
  | ⟨1, _⟩ =>
    show win0_5.index ⟨(i 0).val / 1024, _⟩ (1 : Fin 2) * 256 ≤ (i 1).val ∧ (i 1).val < win0_5.index ⟨(i 0).val / 1024, _⟩ (1 : Fin 2) * 256 + 256
    rw [e5.2]; omega

/-- Result 0's array after the run. -/
theorem final_5 (c : Dev nD) : (dats m 0 c).arrAt 5 cfg0.N = hiddenArr (R := 65536) (V m c main_arg0) (V m c main_arg1) (V m c main_arg2) (V m c main_v3) (V m c main_v1) :=
  (dats m 0 c).arrAt_eq_of_cover 5 _ (fun t _ => flushed_5 m c t) cover_5

/-- Point `t` writes back to result 1 block `t` of `cellArr` of the arrays the region finds. -/
theorem flushed_6 (c : Dev nD) (t : Fin cfg0.N) :
    (dats m 0 c).flushed 6 t = ((cfg0.win 6).blk t).view.read (Elt Ideal) (cellArr (R := 65536) (V m c main_arg0) (V m c main_arg1) (V m c main_arg2) (V m c main_v3) (V m c main_v1)) := by
  show (cfg0.win 6).cut (grid0.coords t) ((dats m 0 c).after 6 t) = _
  rw [after_6]
  unfold out_6
  rw [View.canon_unit_zero hz]
  simp only [View.ld_unit_zero (S := S1024x256) hz, View.ld_unit_zero (S := S512x1024) hz, View.ld_unit_zero (S := S1024) hz1]
  rw [Pay.pay6_eq, blk_3, blk_4]
  funext y
  obtain ⟨p, q, rfl⟩ : ∃ (p : Fin 1024) (q : Fin 256), y = ix2 p q := ⟨y 0, y 1, eq_ix2 y⟩
  have hemb : ((cfg0.win 6).blk t).view.emb (ix2 p q) = ix2 (grow t p) q := by
    refine funext fun a => Fin.ext ?_
    obtain ⟨e0, e1, e2, e3, e4, e5, e6, e7, e8, e9, e10⟩ := idx_facts t
    match a with
    | ⟨0, _⟩ => show win0_6.index t (0 : Fin 2) * 1024 + 1 * p.val = t.val * 1024 + p.val; omega
    | ⟨1, _⟩ => show win0_6.index t (1 : Fin 2) * 256 + 1 * q.val = q.val; omega
  show cellArr (R := 1024) (iblk m c 0 t) (iblk m c 1 t) (iblk m c 2 t) (V m c main_v3) (V m c main_v1) (ix2 p q)
    = cellArr (R := 65536) (V m c main_arg0) (V m c main_arg1) (V m c main_arg2) (V m c main_v3) (V m c main_v1) (((cfg0.win 6).blk t).view.emb (ix2 p q))
  rw [hemb]
  exact cellNext_rows _ _ _ _ _ _ _ _ p (grow t p) (fun q => blk_0 m c t p q) (fun q => blk_1 m c t p q) (fun q => blk_2 m c t p q) q

/-- An index of result 1's array is in point `t`'s block iff each coordinate is in the block's range on its axis. -/
theorem mem_blk_6 (t : Fin cfg0.N) (i : S65536x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v4_1).slice (win0_6.rect t)).set ↔ _
  rw [View.set_slice_whole, Rect.mem_set_unit]
  exact Iff.rfl

/-- Every index of result 1's array lies in the block of the point its row divided by 1024 names, which is written back. -/
theorem cover_6 (i : S65536x256.Idx) : ∃ t : Fin cfg0.N, (cfg0.win 6).flush t = true ∧ i ∈ ((cfg0.win 6).blk t).view.set := by
  have hi0 : (i 0).val < 65536 := (i 0).isLt
  have hi1 : (i 1).val < 256 := (i 1).isLt
  have hN : cfg0.N = 64 := N_0
  refine ⟨⟨(i 0).val / 1024, by omega⟩, flush0_6 _, ?_⟩
  rw [mem_blk_6]
  obtain ⟨e0, e1, e2, e3, e4, e5, e6, e7, e8, e9, e10⟩ := idx_facts ⟨(i 0).val / 1024, by omega⟩
  intro a
  match a with
  | ⟨0, _⟩ =>
    show win0_6.index ⟨(i 0).val / 1024, _⟩ (0 : Fin 2) * 1024 ≤ (i 0).val ∧ (i 0).val < win0_6.index ⟨(i 0).val / 1024, _⟩ (0 : Fin 2) * 1024 + 1024
    rw [e6.1]; show (i 0).val / 1024 * 1024 ≤ (i 0).val ∧ (i 0).val < (i 0).val / 1024 * 1024 + 1024; omega
  | ⟨1, _⟩ =>
    show win0_6.index ⟨(i 0).val / 1024, _⟩ (1 : Fin 2) * 256 ≤ (i 1).val ∧ (i 1).val < win0_6.index ⟨(i 0).val / 1024, _⟩ (1 : Fin 2) * 256 + 256
    rw [e6.2]; omega

/-- Result 1's array after the run. -/
theorem final_6 (c : Dev nD) : (dats m 0 c).arrAt 6 cfg0.N = cellArr (R := 65536) (V m c main_arg0) (V m c main_arg1) (V m c main_arg2) (V m c main_v3) (V m c main_v1) :=
  (dats m 0 c).arrAt_eq_of_cover 6 _ (fun t _ => flushed_6 m c t) cover_6

/-- Point `t` writes back to result 2 block `t` of `forgetArr` of the arrays the region finds. -/
theorem flushed_7 (c : Dev nD) (t : Fin cfg0.N) :
    (dats m 0 c).flushed 7 t = ((cfg0.win 7).blk t).view.read (Elt Ideal) (forgetArr (R := 65536) (V m c main_arg0) (V m c main_arg1) (V m c main_v3) (V m c main_v1)) := by
  show (cfg0.win 7).cut (grid0.coords t) ((dats m 0 c).after 7 t) = _
  rw [after_7]
  unfold out_7
  rw [View.canon_unit_zero hz]
  simp only [View.ld_unit_zero (S := S1024x256) hz, View.ld_unit_zero (S := S512x1024) hz, View.ld_unit_zero (S := S1024) hz1]
  rw [Pay.pay2_eq, blk_3, blk_4]
  funext y
  obtain ⟨p, q, rfl⟩ : ∃ (p : Fin 1024) (q : Fin 256), y = ix2 p q := ⟨y 0, y 1, eq_ix2 y⟩
  have hemb : ((cfg0.win 7).blk t).view.emb (ix2 p q) = ix2 (grow t p) q := by
    refine funext fun a => Fin.ext ?_
    obtain ⟨e0, e1, e2, e3, e4, e5, e6, e7, e8, e9, e10⟩ := idx_facts t
    match a with
    | ⟨0, _⟩ => show win0_7.index t (0 : Fin 2) * 1024 + 1 * p.val = t.val * 1024 + p.val; omega
    | ⟨1, _⟩ => show win0_7.index t (1 : Fin 2) * 256 + 1 * q.val = q.val; omega
  show forgetArr (R := 1024) (iblk m c 0 t) (iblk m c 1 t) (V m c main_v3) (V m c main_v1) (ix2 p q)
    = forgetArr (R := 65536) (V m c main_arg0) (V m c main_arg1) (V m c main_v3) (V m c main_v1) (((cfg0.win 7).blk t).view.emb (ix2 p q))
  rw [hemb]
  exact forgetGate_rows _ _ _ _ _ _ p (grow t p) (fun q => blk_0 m c t p q) (fun q => blk_1 m c t p q) q

/-- An index of result 2's array is in point `t`'s block iff each coordinate is in the block's range on its axis. -/
theorem mem_blk_7 (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v4_2).slice (win0_7.rect t)).set ↔ _
  rw [View.set_slice_whole, Rect.mem_set_unit]
  exact Iff.rfl

/-- Every index of result 2's array lies in the block of the point its row divided by 1024 names, which is written back. -/
theorem cover_7 (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  have hN : cfg0.N = 64 := N_0
  refine ⟨⟨(i 0).val / 1024, by omega⟩, flush0_7 _, ?_⟩
  rw [mem_blk_7]
  obtain ⟨e0, e1, e2, e3, e4, e5, e6, e7, e8, e9, e10⟩ := idx_facts ⟨(i 0).val / 1024, by omega⟩
  intro a
  match a with
  | ⟨0, _⟩ =>
    show win0_7.index ⟨(i 0).val / 1024, _⟩ (0 : Fin 2) * 1024 ≤ (i 0).val ∧ (i 0).val < win0_7.index ⟨(i 0).val / 1024, _⟩ (0 : Fin 2) * 1024 + 1024
    rw [e7.1]; show (i 0).val / 1024 * 1024 ≤ (i 0).val ∧ (i 0).val < (i 0).val / 1024 * 1024 + 1024; omega
  | ⟨1, _⟩ =>
    show win0_7.index ⟨(i 0).val / 1024, _⟩ (1 : Fin 2) * 256 ≤ (i 1).val ∧ (i 1).val < win0_7.index ⟨(i 0).val / 1024, _⟩ (1 : Fin 2) * 256 + 256
    rw [e7.2]; omega

/-- Result 2's array after the run. -/
theorem final_7 (c : Dev nD) : (dats m 0 c).arrAt 7 cfg0.N = forgetArr (R := 65536) (V m c main_arg0) (V m c main_arg1) (V m c main_v3) (V m c main_v1) :=
  (dats m 0 c).arrAt_eq_of_cover 7 _ (fun t _ => flushed_7 m c t) cover_7

/-- Point `t` writes back to result 3 block `t` of `inputArr` of the arrays the region finds. -/
theorem flushed_8 (c : Dev nD) (t : Fin cfg0.N) :
    (dats m 0 c).flushed 8 t = ((cfg0.win 8).blk t).view.read (Elt Ideal) (inputArr (R := 65536) (V m c main_arg0) (V m c main_arg1) (V m c main_v3) (V m c main_v1)) := by
  show (cfg0.win 8).cut (grid0.coords t) ((dats m 0 c).after 8 t) = _
  rw [after_8]
  unfold out_8
  rw [View.canon_unit_zero hz]
  simp only [View.ld_unit_zero (S := S1024x256) hz, View.ld_unit_zero (S := S512x1024) hz, View.ld_unit_zero (S := S1024) hz1]
  rw [Pay.pay3_eq, blk_3, blk_4]
  funext y
  obtain ⟨p, q, rfl⟩ : ∃ (p : Fin 1024) (q : Fin 256), y = ix2 p q := ⟨y 0, y 1, eq_ix2 y⟩
  have hemb : ((cfg0.win 8).blk t).view.emb (ix2 p q) = ix2 (grow t p) q := by
    refine funext fun a => Fin.ext ?_
    obtain ⟨e0, e1, e2, e3, e4, e5, e6, e7, e8, e9, e10⟩ := idx_facts t
    match a with
    | ⟨0, _⟩ => show win0_8.index t (0 : Fin 2) * 1024 + 1 * p.val = t.val * 1024 + p.val; omega
    | ⟨1, _⟩ => show win0_8.index t (1 : Fin 2) * 256 + 1 * q.val = q.val; omega
  show inputArr (R := 1024) (iblk m c 0 t) (iblk m c 1 t) (V m c main_v3) (V m c main_v1) (ix2 p q)
    = inputArr (R := 65536) (V m c main_arg0) (V m c main_arg1) (V m c main_v3) (V m c main_v1) (((cfg0.win 8).blk t).view.emb (ix2 p q))
  rw [hemb]
  exact inputGate_rows _ _ _ _ _ _ p (grow t p) (fun q => blk_0 m c t p q) (fun q => blk_1 m c t p q) q

/-- An index of result 3's array is in point `t`'s block iff each coordinate is in the block's range on its axis. -/
theorem mem_blk_8 (t : Fin cfg0.N) (i : S65536x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v4_3).slice (win0_8.rect t)).set ↔ _
  rw [View.set_slice_whole, Rect.mem_set_unit]
  exact Iff.rfl

/-- Every index of result 3's array lies in the block of the point its row divided by 1024 names, which is written back. -/
theorem cover_8 (i : S65536x256.Idx) : ∃ t : Fin cfg0.N, (cfg0.win 8).flush t = true ∧ i ∈ ((cfg0.win 8).blk t).view.set := by
  have hi0 : (i 0).val < 65536 := (i 0).isLt
  have hi1 : (i 1).val < 256 := (i 1).isLt
  have hN : cfg0.N = 64 := N_0
  refine ⟨⟨(i 0).val / 1024, by omega⟩, flush0_8 _, ?_⟩
  rw [mem_blk_8]
  obtain ⟨e0, e1, e2, e3, e4, e5, e6, e7, e8, e9, e10⟩ := idx_facts ⟨(i 0).val / 1024, by omega⟩
  intro a
  match a with
  | ⟨0, _⟩ =>
    show win0_8.index ⟨(i 0).val / 1024, _⟩ (0 : Fin 2) * 1024 ≤ (i 0).val ∧ (i 0).val < win0_8.index ⟨(i 0).val / 1024, _⟩ (0 : Fin 2) * 1024 + 1024
    rw [e8.1]; show (i 0).val / 1024 * 1024 ≤ (i 0).val ∧ (i 0).val < (i 0).val / 1024 * 1024 + 1024; omega
  | ⟨1, _⟩ =>
    show win0_8.index ⟨(i 0).val / 1024, _⟩ (1 : Fin 2) * 256 ≤ (i 1).val ∧ (i 1).val < win0_8.index ⟨(i 0).val / 1024, _⟩ (1 : Fin 2) * 256 + 256
    rw [e8.2]; omega

/-- Result 3's array after the run. -/
theorem final_8 (c : Dev nD) : (dats m 0 c).arrAt 8 cfg0.N = inputArr (R := 65536) (V m c main_arg0) (V m c main_arg1) (V m c main_v3) (V m c main_v1) :=
  (dats m 0 c).arrAt_eq_of_cover 8 _ (fun t _ => flushed_8 m c t) cover_8

/-- Point `t` writes back to result 4 block `t` of `outputArr` of the arrays the region finds. -/
theorem flushed_9 (c : Dev nD) (t : Fin cfg0.N) :
    (dats m 0 c).flushed 9 t = ((cfg0.win 9).blk t).view.read (Elt Ideal) (outputArr (R := 65536) (V m c main_arg0) (V m c main_arg1) (V m c main_v3) (V m c main_v1)) := by
  show (cfg0.win 9).cut (grid0.coords t) ((dats m 0 c).after 9 t) = _
  rw [after_9]
  unfold out_9
  rw [View.canon_unit_zero hz]
  simp only [View.ld_unit_zero (S := S1024x256) hz, View.ld_unit_zero (S := S512x1024) hz, View.ld_unit_zero (S := S1024) hz1]
  rw [Pay.pay4_eq, blk_3, blk_4]
  funext y
  obtain ⟨p, q, rfl⟩ : ∃ (p : Fin 1024) (q : Fin 256), y = ix2 p q := ⟨y 0, y 1, eq_ix2 y⟩
  have hemb : ((cfg0.win 9).blk t).view.emb (ix2 p q) = ix2 (grow t p) q := by
    refine funext fun a => Fin.ext ?_
    obtain ⟨e0, e1, e2, e3, e4, e5, e6, e7, e8, e9, e10⟩ := idx_facts t
    match a with
    | ⟨0, _⟩ => show win0_9.index t (0 : Fin 2) * 1024 + 1 * p.val = t.val * 1024 + p.val; omega
    | ⟨1, _⟩ => show win0_9.index t (1 : Fin 2) * 256 + 1 * q.val = q.val; omega
  show outputArr (R := 1024) (iblk m c 0 t) (iblk m c 1 t) (V m c main_v3) (V m c main_v1) (ix2 p q)
    = outputArr (R := 65536) (V m c main_arg0) (V m c main_arg1) (V m c main_v3) (V m c main_v1) (((cfg0.win 9).blk t).view.emb (ix2 p q))
  rw [hemb]
  exact outputGate_rows _ _ _ _ _ _ p (grow t p) (fun q => blk_0 m c t p q) (fun q => blk_1 m c t p q) q

/-- An index of result 4's array is in point `t`'s block iff each coordinate is in the block's range on its axis. -/
theorem mem_blk_9 (t : Fin cfg0.N) (i : S65536x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v4_4).slice (win0_9.rect t)).set ↔ _
  rw [View.set_slice_whole, Rect.mem_set_unit]
  exact Iff.rfl

/-- Every index of result 4's array lies in the block of the point its row divided by 1024 names, which is written back. -/
theorem cover_9 (i : S65536x256.Idx) : ∃ t : Fin cfg0.N, (cfg0.win 9).flush t = true ∧ i ∈ ((cfg0.win 9).blk t).view.set := by
  have hi0 : (i 0).val < 65536 := (i 0).isLt
  have hi1 : (i 1).val < 256 := (i 1).isLt
  have hN : cfg0.N = 64 := N_0
  refine ⟨⟨(i 0).val / 1024, by omega⟩, flush0_9 _, ?_⟩
  rw [mem_blk_9]
  obtain ⟨e0, e1, e2, e3, e4, e5, e6, e7, e8, e9, e10⟩ := idx_facts ⟨(i 0).val / 1024, by omega⟩
  intro a
  match a with
  | ⟨0, _⟩ =>
    show win0_9.index ⟨(i 0).val / 1024, _⟩ (0 : Fin 2) * 1024 ≤ (i 0).val ∧ (i 0).val < win0_9.index ⟨(i 0).val / 1024, _⟩ (0 : Fin 2) * 1024 + 1024
    rw [e9.1]; show (i 0).val / 1024 * 1024 ≤ (i 0).val ∧ (i 0).val < (i 0).val / 1024 * 1024 + 1024; omega
  | ⟨1, _⟩ =>
    show win0_9.index ⟨(i 0).val / 1024, _⟩ (1 : Fin 2) * 256 ≤ (i 1).val ∧ (i 1).val < win0_9.index ⟨(i 0).val / 1024, _⟩ (1 : Fin 2) * 256 + 256
    rw [e9.2]; omega

/-- Result 4's array after the run. -/
theorem final_9 (c : Dev nD) : (dats m 0 c).arrAt 9 cfg0.N = outputArr (R := 65536) (V m c main_arg0) (V m c main_arg1) (V m c main_v3) (V m c main_v1) :=
  (dats m 0 c).arrAt_eq_of_cover 9 _ (fun t _ => flushed_9 m c t) cover_9

/-- Point `t` writes back to result 5 block `t` of `candidateArr` of the arrays the region finds. -/
theorem flushed_10 (c : Dev nD) (t : Fin cfg0.N) :
    (dats m 0 c).flushed 10 t = ((cfg0.win 10).blk t).view.read (Elt Ideal) (candidateArr (R := 65536) (V m c main_arg0) (V m c main_arg1) (V m c main_v3) (V m c main_v1)) := by
  show (cfg0.win 10).cut (grid0.coords t) ((dats m 0 c).after 10 t) = _
  rw [after_10]
  unfold out_10
  rw [View.canon_unit_zero hz]
  simp only [View.ld_unit_zero (S := S1024x256) hz, View.ld_unit_zero (S := S512x1024) hz, View.ld_unit_zero (S := S1024) hz1]
  rw [Pay.pay5_eq, blk_3, blk_4]
  funext y
  obtain ⟨p, q, rfl⟩ : ∃ (p : Fin 1024) (q : Fin 256), y = ix2 p q := ⟨y 0, y 1, eq_ix2 y⟩
  have hemb : ((cfg0.win 10).blk t).view.emb (ix2 p q) = ix2 (grow t p) q := by
    refine funext fun a => Fin.ext ?_
    obtain ⟨e0, e1, e2, e3, e4, e5, e6, e7, e8, e9, e10⟩ := idx_facts t
    match a with
    | ⟨0, _⟩ => show win0_10.index t (0 : Fin 2) * 1024 + 1 * p.val = t.val * 1024 + p.val; omega
    | ⟨1, _⟩ => show win0_10.index t (1 : Fin 2) * 256 + 1 * q.val = q.val; omega
  show candidateArr (R := 1024) (iblk m c 0 t) (iblk m c 1 t) (V m c main_v3) (V m c main_v1) (ix2 p q)
    = candidateArr (R := 65536) (V m c main_arg0) (V m c main_arg1) (V m c main_v3) (V m c main_v1) (((cfg0.win 10).blk t).view.emb (ix2 p q))
  rw [hemb]
  exact candidate_rows _ _ _ _ _ _ p (grow t p) (fun q => blk_0 m c t p q) (fun q => blk_1 m c t p q) q

/-- An index of result 5's array is in point `t`'s block iff each coordinate is in the block's range on its axis. -/
theorem mem_blk_10 (t : Fin cfg0.N) (i : S65536x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v4_5).slice (win0_10.rect t)).set ↔ _
  rw [View.set_slice_whole, Rect.mem_set_unit]
  exact Iff.rfl

/-- Every index of result 5's array lies in the block of the point its row divided by 1024 names, which is written back. -/
theorem cover_10 (i : S65536x256.Idx) : ∃ t : Fin cfg0.N, (cfg0.win 10).flush t = true ∧ i ∈ ((cfg0.win 10).blk t).view.set := by
  have hi0 : (i 0).val < 65536 := (i 0).isLt
  have hi1 : (i 1).val < 256 := (i 1).isLt
  have hN : cfg0.N = 64 := N_0
  refine ⟨⟨(i 0).val / 1024, by omega⟩, flush0_10 _, ?_⟩
  rw [mem_blk_10]
  obtain ⟨e0, e1, e2, e3, e4, e5, e6, e7, e8, e9, e10⟩ := idx_facts ⟨(i 0).val / 1024, by omega⟩
  intro a
  match a with
  | ⟨0, _⟩ =>
    show win0_10.index ⟨(i 0).val / 1024, _⟩ (0 : Fin 2) * 1024 ≤ (i 0).val ∧ (i 0).val < win0_10.index ⟨(i 0).val / 1024, _⟩ (0 : Fin 2) * 1024 + 1024
    rw [e10.1]; show (i 0).val / 1024 * 1024 ≤ (i 0).val ∧ (i 0).val < (i 0).val / 1024 * 1024 + 1024; omega
  | ⟨1, _⟩ =>
    show win0_10.index ⟨(i 0).val / 1024, _⟩ (1 : Fin 2) * 256 ≤ (i 1).val ∧ (i 1).val < win0_10.index ⟨(i 0).val / 1024, _⟩ (1 : Fin 2) * 256 + 256
    rw [e10.2]; omega

/-- Result 5's array after the run. -/
theorem final_10 (c : Dev nD) : (dats m 0 c).arrAt 10 cfg0.N = candidateArr (R := 65536) (V m c main_arg0) (V m c main_arg1) (V m c main_v3) (V m c main_v1) :=
  (dats m 0 c).arrAt_eq_of_cover 10 _ (fun t _ => flushed_10 m c t) cover_10

/-! ## What the region finds in the weight and bias buffers -/

/-- The four gates' weight matrices stacked along the rows, transposed. -/
def weights (c : Dev nD) : S512x1024.Idx → EReal :=
  transpose S512x1024 [1, 0] (concatenate S1024x512 0 [⟨S256x512, m ((c : Thread nD τ).loc main_arg3)⟩, ⟨S256x512, m ((c : Thread nD τ).loc main_arg5)⟩, ⟨S256x512, m ((c : Thread nD τ).loc main_arg7)⟩, ⟨S256x512, m ((c : Thread nD τ).loc main_arg9)⟩] concatenates_S256x512_S256x512_S256x512_S256x512_S1024x512_d0) transposes_S1024x512_S512x1024_1_0
/-- The four gates' bias vectors joined end to end. -/
def biases (c : Dev nD) : S1024.Idx → EReal :=
  concatenate S1024 0 [⟨S256, m ((c : Thread nD τ).loc main_arg4)⟩, ⟨S256, m ((c : Thread nD τ).loc main_arg6)⟩, ⟨S256, m ((c : Thread nD τ).loc main_arg8)⟩, ⟨S256, m ((c : Thread nD τ).loc main_arg10)⟩] concatenates_S256_S256_S256_S256_S1024_d0

theorem V_weights (c : Dev nD) : (V m c main_v3 : S512x1024.Idx → EReal) = weights m c := by
  have e : @Eq (S512x1024.Idx → EReal) (V m c main_v3) (truncf (F := Ideal) (φ := .f32) .bf16 (weights m c) bitsLt_bf16_f32) := by
    dsimp only [V, hostOps0, weights]; after_results; rfl
  exact e.trans rfl
theorem V_biases (c : Dev nD) : (V m c main_v1 : S1024.Idx → EReal) = biases m c := by
  dsimp only [V, hostOps0, biases]; after_results; rfl

/-! ## The run, read -/

/-- The frame run re-posted: each result array at the cell on the argument arrays, the arguments unchanged. -/
theorem run : θ_run defs (onTc (τ := τ) (main (F := Ideal))) ⟨m, fun _ => 0, ρ⟩ fun r => ∀ c : Dev nD,
      r.2.mem ((c : Thread nD τ).loc main_v4_0) = hiddenArr (R := 65536) (m ((c : Thread nD τ).loc main_arg0)) (m ((c : Thread nD τ).loc main_arg1)) (m ((c : Thread nD τ).loc main_arg2)) (weights m c) (biases m c)
      ∧ r.2.mem ((c : Thread nD τ).loc main_v4_1) = cellArr (R := 65536) (m ((c : Thread nD τ).loc main_arg0)) (m ((c : Thread nD τ).loc main_arg1)) (m ((c : Thread nD τ).loc main_arg2)) (weights m c) (biases m c)
      ∧ r.2.mem ((c : Thread nD τ).loc main_v4_2) = forgetArr (R := 65536) (m ((c : Thread nD τ).loc main_arg0)) (m ((c : Thread nD τ).loc main_arg1)) (weights m c) (biases m c)
      ∧ r.2.mem ((c : Thread nD τ).loc main_v4_3) = inputArr (R := 65536) (m ((c : Thread nD τ).loc main_arg0)) (m ((c : Thread nD τ).loc main_arg1)) (weights m c) (biases m c)
      ∧ r.2.mem ((c : Thread nD τ).loc main_v4_4) = outputArr (R := 65536) (m ((c : Thread nD τ).loc main_arg0)) (m ((c : Thread nD τ).loc main_arg1)) (weights m c) (biases m c)
      ∧ r.2.mem ((c : Thread nD τ).loc main_v4_5) = candidateArr (R := 65536) (m ((c : Thread nD τ).loc main_arg0)) (m ((c : Thread nD τ).loc main_arg1)) (weights m c) (biases m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨
      (((h c).1 5).trans (final_5 m c)).trans (by rw [V_main_arg0, V_main_arg1, V_main_arg2, V_weights, V_biases]),
      (((h c).1 6).trans (final_6 m c)).trans (by rw [V_main_arg0, V_main_arg1, V_main_arg2, V_weights, V_biases]),
      (((h c).1 7).trans (final_7 m c)).trans (by rw [V_main_arg0, V_main_arg1, V_weights, V_biases]),
      (((h c).1 8).trans (final_8 m c)).trans (by rw [V_main_arg0, V_main_arg1, V_weights, V_biases]),
      (((h c).1 9).trans (final_9 m c)).trans (by rw [V_main_arg0, V_main_arg1, V_weights, V_biases]),
      (((h c).1 10).trans (final_10 m c)).trans (by rw [V_main_arg0, V_main_arg1, V_weights, V_biases]),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KValue

end
-- ==== Proof.RefValue.lean ====
/-
  The reference, read at one entry at the ideal instance, is the long short-term memory cell of Spec.lean on the
  argument arrays. Its matrix product is the plain sum over the 512 joined entries of the row; its bias is the vector
  laid out as one row and repeated down the rows; the four gates are the four 256-column bands; and its logistic
  function, spelt as one over one plus the exponential of the negation with the constant `1.0`, is the logistic function.
  The stacked, transposed weight matrix and the joined bias vector are left as the reference states them (`val_main_v3`,
  `val_main_v2` of the generated read-back): the other program forms the same two arrays by the same operations.
-/
import proofs.«161298_j80341658239358_1_alg».proof.Proof.Gen.ReferenceIdeal.Read
import proofs.«161298_j80341658239358_1_alg».proof.Proof.Spec

noncomputable section

open scoped BigOperators

namespace Cert.ReferenceIdeal.RefValue

open Cert.ReferenceIdeal Cert.ReferenceIdeal.Gen Cert.ReferenceIdeal.Read Cert.Cell Idealize.ShloMosaic Idealize.ShloMosaic.ValueIdx

variable (x0 x1 x2 : (⟨S65536x256, .f32⟩ : BufTy).Contents (Elt Ideal))
variable (x3 x5 x7 x9 : (⟨S256x512, .f32⟩ : BufTy).Contents (Elt Ideal)) (x4 x6 x8 x10 : (⟨S256, .f32⟩ : BufTy).Contents (Elt Ideal))

/-- The pre-activation at row `p` and column `n`. -/
theorem ref_gate (p : Fin 65536) (n : Fin 1024) :
    val_main_v7 (F := Ideal) x0 x1 x3 x4 x5 x6 x7 x8 x9 x10 (ix2 p n) = gate (rows x0) (rows x1) (rows (val_main_v3 (F := Ideal) x3 x5 x7 x9)) (vec (val_main_v2 (F := Ideal) x4 x6 x8 x10)) p n := by
  rw [val_main_v7_apply, val_main_v4_apply, val_main_v6_apply, val_main_v5_apply, Ideal.addf_def]
  unfold gate
  refine congrArg₂ (· + ·) (Finset.sum_congr rfl fun k _ => congrArg₂ (· * ·) ?_ ?_) ?_
  · unfold val_main_v0
    exact concat_joined x0 x1 concatenates_S65536x256_S65536x256_S65536x512_d1 (lidx_main_v4 (ix2 p n) k)
  · exact congrArg (val_main_v3 (F := Ideal) x3 x5 x7 x9) (funext fun a => match a with
      | ⟨0, _⟩ => rfl
      | ⟨1, _⟩ => rfl)
  · exact congrArg (val_main_v2 (F := Ideal) x4 x6 x8 x10) (funext fun a => match a with
      | ⟨0, _⟩ => rfl)

theorem ref_forget (p : Fin 65536) (q : Fin 256) :
    val_main_v17 (F := Ideal) x0 x1 x3 x4 x5 x6 x7 x8 x9 x10 (ix2 p q) = forgetGate (rows x0) (rows x1) (rows (val_main_v3 (F := Ideal) x3 x5 x7 x9)) (vec (val_main_v2 (F := Ideal) x4 x6 x8 x10)) p q := by
  rw [val_main_v17_apply, val_main_v16_apply, val_main_cst_0_apply, val_main_v15_apply, val_main_v14_apply, val_main_cst_apply, val_main_v13_apply, val_main_v12_apply, val_main_v8_apply]
  have e : idx_main_v8 (ix2 p q) = ix2 p (col 0 (by omega) q) := funext fun a => Fin.ext (by
    match a with
    | ⟨0, _⟩ => rfl
    | ⟨1, _⟩ => show q.val = 0 + q.val; omega)
  rw [e, ref_gate]
  exact logistic_spelt _

theorem ref_input (p : Fin 65536) (q : Fin 256) :
    val_main_v23 (F := Ideal) x0 x1 x3 x4 x5 x6 x7 x8 x9 x10 (ix2 p q) = inputGate (rows x0) (rows x1) (rows (val_main_v3 (F := Ideal) x3 x5 x7 x9)) (vec (val_main_v2 (F := Ideal) x4 x6 x8 x10)) p q := by
  rw [val_main_v23_apply, val_main_v22_apply, val_main_cst_2_apply, val_main_v21_apply, val_main_v20_apply, val_main_cst_1_apply, val_main_v19_apply, val_main_v18_apply, val_main_v9_apply]
  have e : idx_main_v9 (ix2 p q) = ix2 p (col 256 (by omega) q) := funext fun a => Fin.ext (by
    match a with
    | ⟨0, _⟩ => rfl
    | ⟨1, _⟩ => show 256 + q.val = 256 + q.val; omega)
  rw [e, ref_gate]
  exact logistic_spelt _

theorem ref_output (p : Fin 65536) (q : Fin 256) :
    val_main_v29 (F := Ideal) x0 x1 x3 x4 x5 x6 x7 x8 x9 x10 (ix2 p q) = outputGate (rows x0) (rows x1) (rows (val_main_v3 (F := Ideal) x3 x5 x7 x9)) (vec (val_main_v2 (F := Ideal) x4 x6 x8 x10)) p q := by
  rw [val_main_v29_apply, val_main_v28_apply, val_main_cst_4_apply, val_main_v27_apply, val_main_v26_apply, val_main_cst_3_apply, val_main_v25_apply, val_main_v24_apply, val_main_v10_apply]
  have e : idx_main_v10 (ix2 p q) = ix2 p (col 512 (by omega) q) := funext fun a => Fin.ext (by
    match a with
    | ⟨0, _⟩ => rfl
    | ⟨1, _⟩ => show 512 + q.val = 512 + q.val; omega)
  rw [e, ref_gate]
  exact logistic_spelt _

theorem ref_candidate (p : Fin 65536) (q : Fin 256) :
    val_main_v30 (F := Ideal) x0 x1 x3 x4 x5 x6 x7 x8 x9 x10 (ix2 p q) = candidate (rows x0) (rows x1) (rows (val_main_v3 (F := Ideal) x3 x5 x7 x9)) (vec (val_main_v2 (F := Ideal) x4 x6 x8 x10)) p q := by
  rw [val_main_v30_apply, val_main_v11_apply]
  have e : idx_main_v11 (ix2 p q) = ix2 p (col 768 (by omega) q) := funext fun a => Fin.ext (by
    match a with
    | ⟨0, _⟩ => rfl
    | ⟨1, _⟩ => show 768 + q.val = 768 + q.val; omega)
  rw [e, ref_gate]
  exact rfl

theorem ref_cell (p : Fin 65536) (q : Fin 256) :
    val_main_v33 (F := Ideal) x0 x1 x2 x3 x4 x5 x6 x7 x8 x9 x10 (ix2 p q) = cellNext (rows x0) (rows x1) (rows x2) (rows (val_main_v3 (F := Ideal) x3 x5 x7 x9)) (vec (val_main_v2 (F := Ideal) x4 x6 x8 x10)) p q := by
  rw [val_main_v33_apply, val_main_v31_apply, val_main_v32_apply, ref_forget, ref_input, ref_candidate]
  rfl

theorem ref_hidden (p : Fin 65536) (q : Fin 256) :
    val_main_v35 (F := Ideal) x0 x1 x2 x3 x4 x5 x6 x7 x8 x9 x10 (ix2 p q) = hiddenNext (rows x0) (rows x1) (rows x2) (rows (val_main_v3 (F := Ideal) x3 x5 x7 x9)) (vec (val_main_v2 (F := Ideal) x4 x6 x8 x10)) p q := by
  rw [val_main_v35_apply, val_main_v34_apply, ref_output, ref_cell]
  rfl

/-! ## The six results as whole arrays -/

theorem hidden_eq : val_main_v35 (F := Ideal) x0 x1 x2 x3 x4 x5 x6 x7 x8 x9 x10 = hiddenArr (R := 65536) x0 x1 x2 (val_main_v3 (F := Ideal) x3 x5 x7 x9) (val_main_v2 (F := Ideal) x4 x6 x8 x10) := by
  funext j
  obtain ⟨p, q, rfl⟩ : ∃ (p : Fin 65536) (q : Fin 256), j = ix2 p q := ⟨j 0, j 1, eq_ix2 j⟩
  exact ref_hidden _ _ _ _ _ _ _ _ _ _ _ p q
theorem cell_eq : val_main_v33 (F := Ideal) x0 x1 x2 x3 x4 x5 x6 x7 x8 x9 x10 = cellArr (R := 65536) x0 x1 x2 (val_main_v3 (F := Ideal) x3 x5 x7 x9) (val_main_v2 (F := Ideal) x4 x6 x8 x10) := by
  funext j
  obtain ⟨p, q, rfl⟩ : ∃ (p : Fin 65536) (q : Fin 256), j = ix2 p q := ⟨j 0, j 1, eq_ix2 j⟩
  exact ref_cell _ _ _ _ _ _ _ _ _ _ _ p q
theorem forget_eq : val_main_v17 (F := Ideal) x0 x1 x3 x4 x5 x6 x7 x8 x9 x10 = forgetArr (R := 65536) x0 x1 (val_main_v3 (F := Ideal) x3 x5 x7 x9) (val_main_v2 (F := Ideal) x4 x6 x8 x10) := by
  funext j
  obtain ⟨p, q, rfl⟩ : ∃ (p : Fin 65536) (q : Fin 256), j = ix2 p q := ⟨j 0, j 1, eq_ix2 j⟩
  exact ref_forget _ _ _ _ _ _ _ _ _ _ p q
theorem input_eq : val_main_v23 (F := Ideal) x0 x1 x3 x4 x5 x6 x7 x8 x9 x10 = inputArr (R := 65536) x0 x1 (val_main_v3 (F := Ideal) x3 x5 x7 x9) (val_main_v2 (F := Ideal) x4 x6 x8 x10) := by
  funext j
  obtain ⟨p, q, rfl⟩ : ∃ (p : Fin 65536) (q : Fin 256), j = ix2 p q := ⟨j 0, j 1, eq_ix2 j⟩
  exact ref_input _ _ _ _ _ _ _ _ _ _ p q
theorem output_eq : val_main_v29 (F := Ideal) x0 x1 x3 x4 x5 x6 x7 x8 x9 x10 = outputArr (R := 65536) x0 x1 (val_main_v3 (F := Ideal) x3 x5 x7 x9) (val_main_v2 (F := Ideal) x4 x6 x8 x10) := by
  funext j
  obtain ⟨p, q, rfl⟩ : ∃ (p : Fin 65536) (q : Fin 256), j = ix2 p q := ⟨j 0, j 1, eq_ix2 j⟩
  exact ref_output _ _ _ _ _ _ _ _ _ _ p q
theorem candidate_eq : val_main_v30 (F := Ideal) x0 x1 x3 x4 x5 x6 x7 x8 x9 x10 = candidateArr (R := 65536) x0 x1 (val_main_v3 (F := Ideal) x3 x5 x7 x9) (val_main_v2 (F := Ideal) x4 x6 x8 x10) := by
  funext j
  obtain ⟨p, q, rfl⟩ : ∃ (p : Fin 65536) (q : Fin 256), j = ix2 p q := ⟨j 0, j 1, eq_ix2 j⟩
  exact ref_candidate _ _ _ _ _ _ _ _ _ _ p q

end Cert.ReferenceIdeal.RefValue

end
-- ==== Proof.lean ====
/-
  The certificate of a long short-term memory cell written as a row-blocked kernel, against the same cell written
  with whole-array operations.

  Frames. Both readings of the kernel program (word level and ideal) are the same text: four host operations that
  stack, join, transpose and re-format the weights and biases, then one region over 64 grid points whose body
  loads five blocks and stores six. Its run is in FrameBits.lean / FrameIdeal.lean: every execution terminates, nothing
  faults, and the eleven argument arrays end as launched (three are staged read-only, eight are staged by no window).
  The reference is host operations only; its run is the generated one, with the results dropped.

  The idealization rewrote nothing, so there is nothing to preserve.

  Values. At the ideal instance the kernel's six result arrays end as the cell of Spec.lean on the argument arrays
  (KernelValue.lean: each grid point writes back the block of one whole-array function, and the 64 blocks cover the
  rows), and the reference's six results are the same functions (RefValue.lean). Both programs build the stacked,
  transposed weight matrix and the joined bias vector by the same operations, so those two arrays are one term on
  both sides; the kernel's extra change of format on the weights is the identity on extended reals. No finiteness of
  the inputs is used: the two programs form the same sums of the same products in the same arrangement.
-/
import proofs.«161298_j80341658239358_1_alg».proof.Defs
import proofs.«161298_j80341658239358_1_alg».proof.Proof.Gen.Kernel
import proofs.«161298_j80341658239358_1_alg».proof.Proof.Gen.KernelIdeal
import proofs.«161298_j80341658239358_1_alg».proof.Proof.Gen.ReferenceIdeal
import proofs.«161298_j80341658239358_1_alg».proof.Proof.Gen.Pre_finite_inputs
import proofs.«161298_j80341658239358_1_alg».proof.Proof.Gen.ReferenceIdeal.Run
import proofs.«161298_j80341658239358_1_alg».proof.Proof.Gen.ReferenceIdeal.Read
import proofs.«161298_j80341658239358_1_alg».proof.Proof.FrameBits
import proofs.«161298_j80341658239358_1_alg».proof.Proof.FrameIdeal
import proofs.«161298_j80341658239358_1_alg».proof.Proof.KernelValue
import proofs.«161298_j80341658239358_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2.2.2.2.2.2) (Cert.ReferenceIdeal.Value.run (F := Ideal) m ρ)

theorem preserves : Cert.preserves_Kernel_KernelIdeal := trivial

/-- From memories that agree on the arguments both programs end with the six results at the cell on those arguments. -/
theorem algebraic : Cert.algebraic_KernelIdeal_ReferenceIdeal := by
  intro m ρ m' ρ' _ hagree
  refine ⟨_, _, _, _, _, _, Cert.KernelIdeal.KValue.run m ρ, ?_⟩
  refine (θ_run Cert.ReferenceIdeal.defs _ _).mono (fun _ h c => ?_) (Cert.ReferenceIdeal.Value.run (F := Ideal) m' ρ')
  obtain ⟨h35, h33, h17, h23, h29, h30, hargs⟩ := h c
  obtain ⟨a0, a1, a2, a3, a4, a5, a6, a7, a8, a9, a10⟩ := hagree c
  refine ⟨?_, ?_, ?_, ?_, ?_, ?_, hargs⟩
  · rw [h35, Cert.ReferenceIdeal.Read.val_main_v35_eq, a0, a1, a2, a3, a4, a5, a6, a7, a8, a9, a10, Cert.ReferenceIdeal.RefValue.hidden_eq]; rfl
  · rw [h33, Cert.ReferenceIdeal.Read.val_main_v33_eq, a0, a1, a2, a3, a4, a5, a6, a7, a8, a9, a10, Cert.ReferenceIdeal.RefValue.cell_eq]; rfl
  · rw [h17, Cert.ReferenceIdeal.Read.val_main_v17_eq, a0, a1, a3, a4, a5, a6, a7, a8, a9, a10, Cert.ReferenceIdeal.RefValue.forget_eq]; rfl
  · rw [h23, Cert.ReferenceIdeal.Read.val_main_v23_eq, a0, a1, a3, a4, a5, a6, a7, a8, a9, a10, Cert.ReferenceIdeal.RefValue.input_eq]; rfl
  · rw [h29, Cert.ReferenceIdeal.Read.val_main_v29_eq, a0, a1, a3, a4, a5, a6, a7, a8, a9, a10, Cert.ReferenceIdeal.RefValue.output_eq]; rfl
  · rw [h30, Cert.ReferenceIdeal.Read.val_main_v30_eq, a0, a1, a3, a4, a5, a6, a7, a8, a9, a10, Cert.ReferenceIdeal.RefValue.candidate_eq]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
